-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S50257x2048 : Shape := ⟨2, ![50257, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S50257x2048 : S_.BroadcastsInDim S50257x2048 (![] : Fin 0 → Fin S50257x2048.rank)
  reducesTo_S50257x2048_S_d0_1 : S50257x2048.ReducesTo [0, 1] S_

variable [Facts]

def fn {F : FTy → Type} [FloatOps F] (main_arg0 : FVec F S2048x2048 .f32) (main_arg1 : FVec F S50257x2048 .f32) (main_arg2 : IVec S2048 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S50257x2048 .f32 := Host.absf main_arg1
  let main_cst_0 : FVec F S_ .f32 := constant S_ .f32 0x7F800000#32
  let main_v5 : FVec F S50257x2048 .f32 := broadcastInDim S50257x2048 ![] bcast_S_S50257x2048 main_cst_0
  let main_v6 : IVec S50257x2048 1 := cmpf .olt main_v4 main_v5
  let main_c_1 : IVec S_ 1 := constantI S_ 1 1#1
  let main_v7 : IVec S_ 1 := (fun x v => Host.reduce IntOp.andi x v reducesTo_S50257x2048_S_d0_1 h_S_) main_v6 main_c_1
  let main_v8 : IVec S_ 1 := andi main_v3 main_v7
  main_v8
-- ==== Kernel.lean ====
abbrev S2048x2048 : Shape := ⟨2, ![2048, 2048]⟩
abbrev S50257x2048 : Shape := ⟨2, ![50257, 2048]⟩
abbrev S2048 : Shape := ⟨1, ![2048]⟩
abbrev S_ : Shape := ⟨0, ![]⟩
abbrev S51200x2048 : Shape := ⟨2, ![51200, 2048]⟩
abbrev S2048x1 : Shape := ⟨2, ![2048, 1]⟩
abbrev S1024x2048 : Shape := ⟨2, ![1024, 2048]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 30
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S50257x2048, .f32⟩
  | .hbm, ⟨2, _⟩ => ⟨S2048, .i32⟩
  | .hbm, ⟨3, _⟩ => ⟨S2048x2048, .bf16⟩
  | .hbm, ⟨4, _⟩ => ⟨S50257x2048, .bf16⟩
  | .hbm, ⟨5, _⟩ => ⟨S_, .i32⟩
  | .hbm, ⟨6, _⟩ => ⟨S_, .bf16⟩
  | .hbm, ⟨7, _⟩ => ⟨S51200x2048, .bf16⟩
  | .hbm, ⟨8, _⟩ => ⟨S2048x1, .f32⟩
  | .hbm, ⟨9, _⟩ => ⟨S2048x1, .f32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v37 : BitVec 1 := Scalar.cmpi .eq arg1 c49_i32
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

class Facts₀ : Prop where
  bitsLt_bf16_f32 : FTy.bits .bf16 < FTy.bits .f32
  pads_S50257x2048_S51200x2048_09430_000 : S50257x2048.Pads (![0, 0] : Fin 2 → Nat) ![943, 0] ![0, 0] S51200x2048
  h_S_ : 0 < S_.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  bcast_S_S2048 : S_.BroadcastsInDim S2048 (![] : Fin 0 → Fin S2048.rank)
  bcast_S2048_S2048x1_0 : S2048.BroadcastsInDim S2048x1 (![0] : Fin 1 → Fin S2048x1.rank)
  reducesTo_S2048x2048_S2048_d1 : S2048x2048.ReducesTo [1] S2048
  shapeCasts_S2048x1_S2048 : S2048x1.ShapeCasts S2048
  reducesTo_S2048_S_d0 : S2048.ReducesTo [0] S_
  dot_S1024x2048_S1024x2048_S1024x1024_1_1_0_0_n_n_wf : DotDims.WF S1024x2048 S1024x2048 S1024x1024 [1] [1] [0] [0] [] []
  gather_S50257x2048_S2048x1_S2048x2048_1_0_n_n_0_1_12048_wf : GatherDims.WF S50257x2048 S2048x1 S2048x2048 [1] [0] [] [0] [] 1 ![1, 2048]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .bf16 = 32 ∨ (Rect.block (s := S2048x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S51200x2048.size a
  hwx0_1 : ∀ i : grid0.Coords, EltTy.bits .bf16 = 32 ∨ (Rect.block (s := S51200x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .f32 = 32 ∨ (Rect.block (s := S2048x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def gather_S50257x2048_S2048x1_S2048x2048_1_0_n_n_0_1_12048 : GatherDims S50257x2048 S2048x1 S2048x2048 where
  offsetDims := [1]
  collapsedSliceDims := [0]
  operandBatchingDims := []
  startIndicesBatchingDims := []
  startIndexMap := [0]
  indexVectorDim := 1
  sliceSizes := ![1, 2048]
  wf := gather_S50257x2048_S2048x1_S2048x2048_1_0_n_n_0_1_12048_wf

abbrev win0_0 : Pipeline.Window sig grid0 :=
  Pipeline.Window.ofSpec (Memref.whole main_v0) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1024x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1024x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x2048 : Shape := ⟨2, ![2048, 2048]⟩
abbrev S50257x2048 : Shape := ⟨2, ![50257, 2048]⟩
abbrev S2048 : Shape := ⟨1, ![2048]⟩
abbrev S2048x50257 : Shape := ⟨2, ![2048, 50257]⟩
abbrev S_ : Shape := ⟨0, ![]⟩
abbrev S2048x1 : Shape := ⟨2, ![2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S50257x2048, .f32⟩
  | .hbm, ⟨2, _⟩ => ⟨S2048, .i32⟩
  | .hbm, ⟨3, _⟩ => ⟨S2048x50257, .f32⟩
  | .hbm, ⟨4, _⟩ => ⟨S2048x50257, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x50257, .f32⟩
  | .hbm, ⟨9, _⟩ => ⟨S2048x50257, .f32⟩
  | .hbm, ⟨10, _⟩ => ⟨S2048x50257, .f32⟩
  | .hbm, ⟨11, _⟩ => ⟨S_, .f32⟩
  | .hbm, ⟨12, _⟩ => ⟨S2048, .f32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S_, .f32⟩
  | .hbm, ⟨30, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  transposes_S50257x2048_S2048x50257_1_0 : S50257x2048.Transposes [1, 0] S2048x50257
  reducesTo_S2048x50257_S2048_d1 : S2048x50257.ReducesTo [1] S2048
  h_S_ : 0 < S_.numel
  bcast_S2048_S2048x1_0 : S2048.BroadcastsInDim S2048x1 (![0] : Fin 1 → Fin S2048x1.rank)
  bcast_S2048x1_S2048x50257_0_1 : S2048x1.BroadcastsInDim S2048x50257 (![0, 1] : Fin 2 → Fin S2048x50257.rank)
  bcast_S_S2048 : S_.BroadcastsInDim S2048 (![] : Fin 0 → Fin S2048.rank)
  reducesTo_S2048x2048_S2048_d1 : S2048x2048.ReducesTo [1] S2048
  reducesTo_S2048_S_d0 : S2048.ReducesTo [0] S_
  dot_S2048x2048_S2048x50257_S2048x50257_1_0_0_1_n_n_wf : DotDims.WF S2048x2048 S2048x50257 S2048x50257 [1] [0] [0] [1] [] []
  gather_S50257x2048_S2048x1_S2048x2048_1_0_n_n_0_1_12048_wf : GatherDims.WF S50257x2048 S2048x1 S2048x2048 [1] [0] [] [0] [] 1 ![1, 2048]

variable [Facts₀]

def dot_S2048x2048_S2048x50257_S2048x50257_1_0_0_1_n_n : DotDims S2048x2048 S2048x50257 S2048x50257 where
  lhsContracting := [1]
  rhsContracting := [0]
  lhsNonContracting := [0]
  rhsNonContracting := [1]
  lhsBatch := []
  rhsBatch := []
  wf := dot_S2048x2048_S2048x50257_S2048x50257_1_0_0_1_n_n_wf
def gather_S50257x2048_S2048x1_S2048x2048_1_0_n_n_0_1_12048 : GatherDims S50257x2048 S2048x1 S2048x2048 where
  offsetDims := [1]
  collapsedSliceDims := [0]
  operandBatchingDims := []
  startIndicesBatchingDims := []
  startIndexMap := [0]
  indexVectorDim := 1
  sliceSizes := ![1, 2048]
  wf := gather_S50257x2048_S2048x1_S2048x2048_1_0_n_n_0_1_12048_wf

class Facts : Prop extends Facts₀ where

variable [Facts]
-- ==== Proof.KernelPieces.lean ====
import proofs.«150779_j43817256354170_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What each control case of the body leaves behind, as functions of what it loaded.

  The body keeps a running maximum "m" and a running sum "l" in two scratch columns.  At the first vocabulary block of
  a token block it resets them to minus infinity and zero and then updates them; at every later block it updates them
  from what the block before left; at the last block it also copies the two columns to the two outputs.  Each lemma
  below names one of these leftovers as the update's closed term.
-/

namespace Cert.KernelIdeal.Stats

open Cert.KernelIdeal Cert.KernelIdeal.Gen

variable {F : FTy → Type} [FloatOps F] [Named F]

theorem hz : (![0, 0] : Fin 2 → Nat) = fun _ => 0 := funext fun a => by fin_cases a <;> rfl

/-! ### The first vocabulary block: the columns are reset, then updated -/

theorem first_max (c : Dev nD) (i : grid0.Coords) (a2 : Memref sig .tc .vmem S1024x2048 .bf16) (h2 : a2.IsWhole) (a3 : Memref sig .tc .vmem S1024x2048 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : cond0_0 i) (hc1 : ¬cond0_1 i)
    (x0 x1 : Vec F S1024x2048 .bf16) :
    sout0_A_0 c i a2 h2 a3 h3 a4 h4 a5 h5 a6 h6 a7 h7 hc0 hc1 x0 x1 = k0_pay1 (k0_pay5 i x0 x1 k0_pay2) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1024x1) hz]
  simp only [View.readCov_unit_zero (S := S1024x1) _ hz, View.readAt_eq_ld, h2.read_unread, h3.read_unread, h6.read_unread, h7.read_unread, View.ld_unit_zero (S := S1024x2048) hz, View.ld_unit_zero (S := S1024x1) hz]

theorem first_sum (c : Dev nD) (i : grid0.Coords) (a2 : Memref sig .tc .vmem S1024x2048 .bf16) (h2 : a2.IsWhole) (a3 : Memref sig .tc .vmem S1024x2048 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : cond0_0 i) (hc1 : ¬cond0_1 i)
    (x0 x1 : Vec F S1024x2048 .bf16) :
    sout0_A_1 c i a2 h2 a3 h3 a4 h4 a5 h5 a6 h6 a7 h7 hc0 hc1 x0 x1 = k0_pay6 i x0 x1 k0_pay2 k0_pay2 k0_pay3 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1024x1) hz]
  simp only [View.readCov_unit_zero (S := S1024x1) _ hz, View.readAt_eq_ld, h2.read_unread, h3.read_unread, h6.read_unread, h7.read_unread, View.ld_unit_zero (S := S1024x2048) hz, View.ld_unit_zero (S := S1024x1) hz]

/-! ### A middle vocabulary block: the columns are updated from what the block before left -/

theorem mid_max (c : Dev nD) (i : grid0.Coords) (a2 : Memref sig .tc .vmem S1024x2048 .bf16) (h2 : a2.IsWhole) (a3 : Memref sig .tc .vmem S1024x2048 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : ¬cond0_1 i)
    (x0 x1 : Vec F S1024x2048 .bf16) (xs0 xs1 : Vec F S1024x1 .f32) :
    sout0_B_0 c i a2 h2 a3 h3 a4 h4 a5 h5 a6 h6 a7 h7 hc0 hc1 x0 x1 xs0 xs1 = k0_pay1 (k0_pay5 i x0 x1 xs0) := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz]
  simp only [View.readAt_eq_ld, h2.read_unread, h3.read_unread, h6.read_unread, h7.read_unread, View.ld_unit_zero (S := S1024x2048) hz, View.ld_unit_zero (S := S1024x1) hz]

theorem mid_sum (c : Dev nD) (i : grid0.Coords) (a2 : Memref sig .tc .vmem S1024x2048 .bf16) (h2 : a2.IsWhole) (a3 : Memref sig .tc .vmem S1024x2048 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : ¬cond0_1 i)
    (x0 x1 : Vec F S1024x2048 .bf16) (xs0 xs1 : Vec F S1024x1 .f32) :
    sout0_B_1 c i a2 h2 a3 h3 a4 h4 a5 h5 a6 h6 a7 h7 hc0 hc1 x0 x1 xs0 xs1 = k0_pay6 i x0 x1 xs0 xs0 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz]
  simp only [View.readAt_eq_ld, h2.read_unread, h3.read_unread, h6.read_unread, h7.read_unread, View.ld_unit_zero (S := S1024x2048) hz, View.ld_unit_zero (S := S1024x1) hz]

/-! ### The last vocabulary block: updated, and copied to the two outputs -/

theorem last_max (c : Dev nD) (i : grid0.Coords) (a2 : Memref sig .tc .vmem S1024x2048 .bf16) (h2 : a2.IsWhole) (a3 : Memref sig .tc .vmem S1024x2048 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : cond0_1 i)
    (x0 x1 : Vec F S1024x2048 .bf16) (xs0 xs1 : Vec F S1024x1 .f32) :
    sout0_C_0 c i a2 h2 a3 h3 a4 h4 a5 h5 a6 h6 a7 h7 hc0 hc1 x0 x1 xs0 xs1 = k0_pay1 (k0_pay5 i x0 x1 xs0) := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz]
  simp only [View.readAt_eq_ld, h2.read_unread, h3.read_unread, h6.read_unread, h7.read_unread, View.ld_unit_zero (S := S1024x2048) hz, View.ld_unit_zero (S := S1024x1) hz]

theorem last_sum (c : Dev nD) (i : grid0.Coords) (a2 : Memref sig .tc .vmem S1024x2048 .bf16) (h2 : a2.IsWhole) (a3 : Memref sig .tc .vmem S1024x2048 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : cond0_1 i)
    (x0 x1 : Vec F S1024x2048 .bf16) (xs0 xs1 : Vec F S1024x1 .f32) :
    sout0_C_1 c i a2 h2 a3 h3 a4 h4 a5 h5 a6 h6 a7 h7 hc0 hc1 x0 x1 xs0 xs1 = k0_pay6 i x0 x1 xs0 xs0 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz]
  simp only [View.readAt_eq_ld, h2.read_unread, h3.read_unread, h6.read_unread, h7.read_unread, View.ld_unit_zero (S := S1024x2048) hz, View.ld_unit_zero (S := S1024x1) hz]

theorem last_out_max (c : Dev nD) (i : grid0.Coords) (a2 : Memref sig .tc .vmem S1024x2048 .bf16) (h2 : a2.IsWhole) (a3 : Memref sig .tc .vmem S1024x2048 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : cond0_1 i)
    (x0 x1 : Vec F S1024x2048 .bf16) (xs0 xs1 : Vec F S1024x1 .f32) :
    out0_C_2 c i a2 h2 a3 h3 a4 h4 a5 h5 a6 h6 a7 h7 hc0 hc1 x0 x1 xs0 xs1 = k0_pay1 (k0_pay5 i x0 x1 xs0) := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz]
  simp only [View.readCov_unit_zero (S := S1024x1) _ hz, View.readAt_eq_ld, h2.read_unread, h3.read_unread, h6.read_unread, h7.read_unread, View.ld_unit_zero (S := S1024x2048) hz, View.ld_unit_zero (S := S1024x1) hz]

theorem last_out_sum (c : Dev nD) (i : grid0.Coords) (a2 : Memref sig .tc .vmem S1024x2048 .bf16) (h2 : a2.IsWhole) (a3 : Memref sig .tc .vmem S1024x2048 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : cond0_1 i)
    (x0 x1 : Vec F S1024x2048 .bf16) (xs0 xs1 : Vec F S1024x1 .f32) :
    out0_C_3 c i a2 h2 a3 h3 a4 h4 a5 h5 a6 h6 a7 h7 hc0 hc1 x0 x1 xs0 xs1 = k0_pay6 i x0 x1 xs0 xs0 xs1 := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz]
  simp only [View.readCov_unit_zero (S := S1024x1) _ hz, View.readAt_eq_ld, h2.read_unread, h3.read_unread, h6.read_unread, h7.read_unread, View.ld_unit_zero (S := S1024x2048) hz, View.ld_unit_zero (S := S1024x1) hz]

end Cert.KernelIdeal.Stats

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.KernelPayload.lean ====
import proofs.«150779_j43817256354170_1_alg».proof.Proof.Gen.KernelIdeal.Frame
import proofs.«150779_j43817256354170_1_alg».proof.Proof.LibMatmulSum
import Idealize.ShloMosaic.Lib.Pipeline.Value
import Idealize.ShloMosaic.Lib.ValueIdx
import Idealize.ShloMosaic.Lib.Affine
import Idealize.ShloMosaic.PureOps.Ideal.Laws
import Idealize.ShloMosaic.PureOps.IdealRules

set_option maxRecDepth 16384

noncomputable section

open Idealize.ShloMosaic Idealize.ShloMosaic.TcCoe Idealize.ShloMosaic.ValueIdx
open scoped BigOperators

/-!
  The body's arithmetic read at an index, on the extended reals.

  At grid point (ti, vi) the body holds a block of 1024 token rows and a block of 1024 vocabulary rows.  Its logit
  block at (p, q) is the inner product of token row p with vocabulary row q; columns whose global index
  "vi * 1024 + q" is not below 50257 are padding and are set to minus infinity.  The running maximum of row p is
  raised to the maximum of that row of the block, and the running sum is rescaled by the exponential of the old
  maximum less the new one before the block's exponentials, shifted by the new maximum, are added.
-/

namespace Cert.KernelIdeal.Stats

open Cert.KernelIdeal Cert.KernelIdeal.Gen

/-- The column bound test on 32-bit words is the same inequality on natural numbers: a vocabulary block index below
    50 and a column below 1024 give a global column below 2^31. -/
theorem mask_iff (a q : ℕ) (ha : a < 50) (hq : q < 1024) :
    IntOp.cmpi .slt (IntOp.addi (Scalar.muli (BitVec.ofNat 32 a) 1024#32) (BitVec.ofNat 32 q)) 50257#32 = 1#1
      ↔ a * 1024 + q < 50257 := by
  rw [IntOp.cmpi_slt]
  have hx : (IntOp.addi (Scalar.muli (BitVec.ofNat 32 a) 1024#32) (BitVec.ofNat 32 q)).toNat = a * 1024 + q := by
    simp only [IntOp.addi, Scalar.muli, IntOp.muli, BitVec.toNat_add, BitVec.toNat_mul, BitVec.toNat_ofNat]
    omega
  have h1 : (IntOp.addi (Scalar.muli (BitVec.ofNat 32 a) 1024#32) (BitVec.ofNat 32 q)).toInt = ((a * 1024 + q : ℕ) : ℤ) := by
    rw [BitVec.toInt_eq_toNat_of_lt (by rw [hx]; omega), hx]
  rw [h1]
  have h2 : (50257#32 : BitVec 32).toInt = 50257 := by decide
  rw [h2]
  omega

/-- The mask's fill is minus infinity at the ideal instance. -/
theorem neg_big_eq : Named.named (F := Ideal) κ "neg_big" (φ := .f32) 0xFF333332#32 = (⊥ : EReal) :=
  IdealRules.named_const.ideal_named_scalar _ _ _ _ rfl

/-- The block product's left operand index at a non-contracted axis is the output's row. -/
theorem lhs_at_0 (j : S1024x1024.Idx) (r : dot_S1024x2048_S1024x2048_S1024x1024_1_1_0_0_n_n.contr.Idx) : (dot_S1024x2048_S1024x2048_S1024x1024_1_1_0_0_n_n.lhsIdx j r 0).val = (j 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
/-- Its contracted axis is the contraction position. -/
theorem lhs_at_1 (j : S1024x1024.Idx) (r : dot_S1024x2048_S1024x2048_S1024x1024_1_1_0_0_n_n.contr.Idx) : (dot_S1024x2048_S1024x2048_S1024x1024_1_1_0_0_n_n.lhsIdx j r 1).val = (r ⟨0, by decide⟩).val :=
  dot_S1024x2048_S1024x2048_S1024x1024_1_1_0_0_n_n.lhsIdx_val_of_single rfl j r
/-- The right operand's non-contracted axis is the output's column. -/
theorem rhs_at_0 (j : S1024x1024.Idx) (r : dot_S1024x2048_S1024x2048_S1024x1024_1_1_0_0_n_n.contr.Idx) : (dot_S1024x2048_S1024x2048_S1024x1024_1_1_0_0_n_n.rhsIdx j r 0).val = (j 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
/-- Its contracted axis is the contraction position too: both operands are contracted along their second axis. -/
theorem rhs_at_1 (j : S1024x1024.Idx) (r : dot_S1024x2048_S1024x2048_S1024x1024_1_1_0_0_n_n.contr.Idx) : (dot_S1024x2048_S1024x2048_S1024x1024_1_1_0_0_n_n.rhsIdx j r 1).val = (r ⟨0, by decide⟩).val :=
  dot_S1024x2048_S1024x2048_S1024x1024_1_1_0_0_n_n.rhsIdx_val_of_single rfl j r

/-- The left operand of the block product at output (p, q) and contraction position k is entry (p, k). -/
theorem lhs_at (p q : Fin 1024) (k : Fin 2048) :
    dot_S1024x2048_S1024x2048_S1024x1024_1_1_0_0_n_n.lhsIdx (ix2 p q) ((contrEquiv1 dot_S1024x2048_S1024x2048_S1024x1024_1_1_0_0_n_n 2048 rfl rfl).symm k) = ix2 p k :=
  funext fun a => Fin.ext (by
    match a with
    | ⟨0, _⟩ => exact lhs_at_0 _ _
    | ⟨1, _⟩ => exact (lhs_at_1 _ _).trans (contrEquiv1_symm_val dot_S1024x2048_S1024x2048_S1024x1024_1_1_0_0_n_n 2048 rfl rfl k))

/-- The right operand there is entry (q, k). -/
theorem rhs_at (p q : Fin 1024) (k : Fin 2048) :
    dot_S1024x2048_S1024x2048_S1024x1024_1_1_0_0_n_n.rhsIdx (ix2 p q) ((contrEquiv1 dot_S1024x2048_S1024x2048_S1024x1024_1_1_0_0_n_n 2048 rfl rfl).symm k) = ix2 q k :=
  funext fun a => Fin.ext (by
    match a with
    | ⟨0, _⟩ => exact rhs_at_0 _ _
    | ⟨1, _⟩ => exact (rhs_at_1 _ _).trans (contrEquiv1_symm_val dot_S1024x2048_S1024x2048_S1024x1024_1_1_0_0_n_n 2048 rfl rfl k))

/-- The masked logit block at (p, q): the inner product of row p of the token block with row q of the vocabulary
    block where the global column "vi * 1024 + q" is a real vocabulary entry, minus infinity on the padding. -/
theorem masked_logits_apply (i : grid0.Coords) (x0 x1 : Vec Ideal S1024x2048 .bf16) (p q : Fin 1024) :
    k0_pay4 (F := Ideal) i x0 x1 (ix2 p q)
      = if (i 1).val * 1024 + q.val < 50257 then ∑ d : Fin 2048, x0 (ix2 p d) * x1 (ix2 q d) else ⊥ := by
  unfold k0_pay4
  dsimp only
  rw [select_apply]
  have hc : cmpi CmpIPredicate.slt
        (addi (broadcast S1024x1024 (Scalar.muli (BitVec.ofNat 32 (i 1).val) 1024#32))
          (iota Kind.tc S1024x1024 32 [1] iota_S1024x1024_d1_w32))
        (broadcast S1024x1024 50257#32) (ix2 p q)
      = IntOp.cmpi .slt (IntOp.addi (Scalar.muli (BitVec.ofNat 32 (i 1).val) 1024#32) (BitVec.ofNat 32 q.val)) 50257#32 := by
    show IntOp.cmpi .slt (IntOp.addi _ (iota Kind.tc S1024x1024 32 [1] iota_S1024x1024_d1_w32 (ix2 p q))) _ = _
    rw [iota_single_apply]
    rfl
  rw [hc, shapeCast_self, shapeCast_self, broadcast_apply, neg_big_eq]
  simp only [matmul]
  rw [MatmulSum.matmul_zero_apply_single dot_S1024x2048_S1024x2048_S1024x1024_1_1_0_0_n_n none 2048 rfl rfl x0 x1 (ix2 p q) (fun k => ix2 p k) (fun k => ix2 q k)
    (lhs_at p q) (rhs_at p q)]
  unfold Scalar.select
  have hi : (i 1).val < 50 := (i 1).isLt
  by_cases h : (i 1).val * 1024 + q.val < 50257
  · rw [if_pos h]
    exact if_pos ((mask_iff _ _ hi q.isLt).mpr h)
  · rw [if_neg h]
    exact if_neg (fun hh => h ((mask_iff _ _ hi q.isLt).mp hh))

/-- The maximum's reset value is minus infinity at every row. -/
theorem reset_max_apply (y : S1024x1.Idx) : k0_pay2 (F := Ideal) y = (⊥ : EReal) := by
  unfold k0_pay2
  rw [shapeCast_self, broadcast_apply]
  show Ideal.ofBits .f32 0xFF800000#32 = ⊥
  simp [Ideal.ofBits, Ideal.ieee]

/-- The sum's reset value is zero at every row. -/
theorem reset_sum_apply (y : S1024x1.Idx) : k0_pay3 (F := Ideal) y = (0 : EReal) := by
  unfold k0_pay3
  rw [shapeCast_self, broadcast_apply]
  exact Ideal.ofBits_zero_f32

/-- The stored maximum is the updated maximum. -/
theorem store_max_eq (v : FVec Ideal S1024x1 .f32) : k0_pay1 (F := Ideal) v = v := by
  unfold k0_pay1
  exact shapeCast_self _ _

/-- A vector of 1024 entries viewed as a column reads its entry p at row p. -/
theorem column_apply (v : S1024.Idx → EReal) (p : Fin 1024) (z : Fin 1) :
    shapeCast S1024x1 v shapeCasts_S1024_S1024x1 (ix2 p z) = v (ix1 p) := by
  refine shapeCast_apply v shapeCasts_S1024_S1024x1 (ix2 p z) (ix1 p) ?_
  rw [Shape.rowMajor_val_one, Shape.rowMajor_val_two]
  show p.val = p.val * 1 + z.val
  have := z.isLt
  omega

/-- Inserting column k into the row index p gives the index (p, k). -/
theorem lift_row (p k : Fin 1024) : reduces_S1024x1024_S1024.lift (ix1 p) k = ix2 p k :=
  funext fun a => Fin.ext (by
    match a with
    | ⟨0, _⟩ => rfl
    | ⟨1, _⟩ => rfl)

/-- The maximum over the columns of a 1024 by 1024 block, at row p: the fold of max from minus infinity. -/
theorem row_max (src : FVec Ideal S1024x1024 .f32) (hφ : FKind.Formats .f32)
    (hacc : (0xFF800000#32 : BitVec 32) = 0xFF800000#32) (p : Fin 1024) :
    multiReduction .maximumf [1] S1024 src 0xFF800000#32 reduces_S1024x1024_S1024 hφ hacc (ix1 p)
      = Finset.univ.fold max ⊥ (fun q : Fin 1024 => src (ix2 p q)) := by
  refine (Ideal.multiReduction_maximumf_single src 0xFF800000#32 reduces_S1024x1024_S1024 hφ hacc (ix1 p)).trans ?_
  show Finset.univ.fold max (Ideal.ofBits .f32 0xFF800000#32) (fun k : Fin 1024 => src (reduces_S1024x1024_S1024.lift (ix1 p) k)) = _
  simp only [lift_row]
  rw [show Ideal.ofBits .f32 0xFF800000#32 = (⊥ : EReal) from by simp [Ideal.ofBits, Ideal.ieee]]

/-- The sum over the columns of a 1024 by 1024 block, at row p. -/
theorem row_sum (src : FVec Ideal S1024x1024 .f32) (hφ : FKind.Formats .f32)
    (hacc : (0x00000000#32 : BitVec 32) = 0x00000000#32) (p : Fin 1024) :
    multiReduction .add [1] S1024 src 0x00000000#32 reduces_S1024x1024_S1024 hφ hacc (ix1 p)
      = ∑ q : Fin 1024, src (ix2 p q) := by
  refine (Ideal.multiReduction_add_single src 0x00000000#32 reduces_S1024x1024_S1024 hφ hacc (ix1 p)).trans ?_
  show ∑ k : Fin 1024, src (reduces_S1024x1024_S1024.lift (ix1 p) k) = _
  simp only [lift_row]

/-- The updated maximum at row p: the old maximum against the maximum of the block's row. -/
theorem new_max_apply (i : grid0.Coords) (x0 x1 : Vec Ideal S1024x2048 .bf16) (mo : Vec Ideal S1024x1 .f32) (p : Fin 1024) (z : Fin 1) :
    k0_pay5 (F := Ideal) i x0 x1 mo (ix2 p z)
      = max (mo (ix2 p z)) (Finset.univ.fold max ⊥ (fun q : Fin 1024 => k0_pay4 (F := Ideal) i x0 x1 (ix2 p q))) := by
  unfold k0_pay5
  dsimp only
  rw [maximumf_apply, column_apply]
  exact congrArg (max (mo (ix2 p z))) (row_max _ _ _ p)

/-- A column broadcast along 1024 columns reads its row's entry. -/
theorem spread_apply (v : S1024x1.Idx → EReal) (p q : Fin 1024) :
    broadcastTo S1024x1024 v broadcasts_S1024x1_S1024x1024 (ix2 p q) = v (ix2 p 0) := by
  refine broadcastTo_apply v broadcasts_S1024x1_S1024x1024 (ix2 p q) (ix2 p 0) ?_
  intro a
  match a with
  | ⟨0, _⟩ => rfl
  | ⟨1, _⟩ => rfl

/-- The updated sum at row p: the old sum rescaled by exp (old maximum − new maximum), plus the block's row of
    exponentials shifted by the new maximum. -/
theorem new_sum_apply (i : grid0.Coords) (x0 x1 : Vec Ideal S1024x2048 .bf16) (mo mo' lo : Vec Ideal S1024x1 .f32) (p : Fin 1024) :
    k0_pay6 (F := Ideal) i x0 x1 mo mo' lo (ix2 p 0)
      = Ideal.exp (mo' (ix2 p 0) - k0_pay5 (F := Ideal) i x0 x1 mo (ix2 p 0)) * lo (ix2 p 0)
        + ∑ q : Fin 1024, Ideal.exp (k0_pay4 (F := Ideal) i x0 x1 (ix2 p q) - k0_pay5 (F := Ideal) i x0 x1 mo (ix2 p 0)) := by
  unfold k0_pay6
  dsimp only
  rw [shapeCast_self, addf_apply, mulf_apply, column_apply]
  refine congrArg₂ (· + ·) rfl ?_
  refine (row_sum _ _ _ p).trans (Finset.sum_congr rfl fun q _ => ?_)
  show Ideal.exp (k0_pay4 (F := Ideal) i x0 x1 (ix2 p q)
    - broadcastTo S1024x1024 (k0_pay5 (F := Ideal) i x0 x1 mo) broadcasts_S1024x1_S1024x1024 (ix2 p q)) = _
  rw [spread_apply]

end Cert.KernelIdeal.Stats

end
-- ==== Proof.KernelBlocks.lean ====
import proofs.«150779_j43817256354170_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

/-!
  Which part of the arrays a grid point sees.

  The grid has 2 token blocks by 50 vocabulary blocks, visited token block first: point t is token block "t / 50"
  and vocabulary block "t % 50".  The token window's block holds rows "t / 50 * 1024 + p" of the token array, the
  vocabulary window's block rows "t % 50 * 1024 + q" of the padded weight array, each with all 2048 features.
-/

namespace Cert.KernelIdeal.Stats

open Cert.KernelIdeal Cert.KernelIdeal.Gen

variable {F : FTy → Type} [FloatOps F] [Named F]
variable (m : (ℓ : Loc nD τ sig) → Buf (Elt F) ℓ)

/-- Grid point t is token block "t / 50" and vocabulary block "t % 50". -/
theorem coords_val : ∀ t : Fin cfg0.N, (grid0.coords t 0).val = t.val / 50 ∧ (grid0.coords t 1).val = t.val % 50 :=
  (by decide +kernel : ∀ t : Fin grid0.N, (grid0.coords t 0).val = t.val / 50 ∧ (grid0.coords t 1).val = t.val % 50)

/-- The token window follows the token block, the vocabulary window the vocabulary block; both take whole rows. -/
theorem index_in : ∀ t : Fin cfg0.N, win0_0.index t 0 = t.val / 50 ∧ win0_0.index t 1 = 0
    ∧ win0_1.index t 0 = t.val % 50 ∧ win0_1.index t 1 = 0 :=
  (by decide +kernel : ∀ t : Fin grid0.N, win0_0.index t 0 = t.val / 50 ∧ win0_0.index t 1 = 0
    ∧ win0_1.index t 0 = t.val % 50 ∧ win0_1.index t 1 = 0)

/-- The two output windows follow the token block; their one column is column 0. -/
theorem index_out : ∀ t : Fin cfg0.N, win0_2.index t 0 = t.val / 50 ∧ win0_2.index t 1 = 0
    ∧ win0_3.index t 0 = t.val / 50 ∧ win0_3.index t 1 = 0 :=
  (by decide +kernel : ∀ t : Fin grid0.N, win0_2.index t 0 = t.val / 50 ∧ win0_2.index t 1 = 0
    ∧ win0_3.index t 0 = t.val / 50 ∧ win0_3.index t 1 = 0)

/-- The global row of row p of the token block at point t. -/
def rowOf (t : Fin cfg0.N) (p : Fin 1024) : Fin 2048 :=
  ⟨t.val / 50 * 1024 + p.val, by have h : t.val < 100 := lt_of_lt_of_eq t.isLt (show cfg0.N = 100 from N_0); have := p.isLt; omega⟩

/-- The global (padded) column of column q of the vocabulary block at point t. -/
def colOf (t : Fin cfg0.N) (q : Fin 1024) : Fin 51200 :=
  ⟨t.val % 50 * 1024 + q.val, by have := q.isLt; omega⟩

/-- The token block at point t, at (p, d): the token array at (global row, d). -/
theorem token_block_apply (c : Dev nD) (t : Fin cfg0.N) (p : Fin 1024) (d : Fin 2048) :
    (iblk m c 0 t : Vec F S1024x2048 .bf16) (ix2 p d) = (V m c main_v0 : S2048x2048.Idx → F .bf16) (ix2 (rowOf t p) d) := by
  have hi := index_in t
  unfold iblk
  rw [View.read_apply]
  show V m c main_v0 _ = V m c main_v0 _
  congr 1
  funext a
  apply Fin.ext
  match a with
  | ⟨0, _⟩ => show win0_0.index t 0 * 1024 + 1 * p.val = t.val / 50 * 1024 + p.val; rw [hi.1]; omega
  | ⟨1, _⟩ => show win0_0.index t 1 * 2048 + 1 * d.val = d.val; rw [hi.2.1]; omega

/-- The vocabulary block at point t, at (q, d): the padded weight array at (global column, d). -/
theorem vocab_block_apply (c : Dev nD) (t : Fin cfg0.N) (q : Fin 1024) (d : Fin 2048) :
    (iblk m c 1 t : Vec F S1024x2048 .bf16) (ix2 q d) = (V m c main_v2 : S51200x2048.Idx → F .bf16) (ix2 (colOf t q) d) := by
  have hi := index_in t
  unfold iblk
  rw [View.read_apply]
  show V m c main_v2 _ = V m c main_v2 _
  congr 1
  funext a
  apply Fin.ext
  match a with
  | ⟨0, _⟩ => show win0_1.index t 0 * 1024 + 1 * q.val = t.val % 50 * 1024 + q.val; rw [hi.2.2.1]; omega
  | ⟨1, _⟩ => show win0_1.index t 1 * 2048 + 1 * d.val = d.val; rw [hi.2.2.2]; omega

end Cert.KernelIdeal.Stats

end
-- ==== Proof.LibOnlineSoftmax.lean ====
/-
  Online softmax on the extended reals.

  A softmax-weighted sum over a row of logits can be computed in one pass over tiles of the row, keeping a
  running maximum "m", a running denominator "l" and a running weighted accumulator "acc": when a tile raises
  the maximum from "m" to "m'", the old denominator and accumulator are multiplied by "exp (m - m')", because
  "exp (m - m') * exp (z - m) = exp (z - m')".  After the last tile "acc / l" is the softmax-weighted sum taken
  with the maximum of the whole row.

  Everything is stated on Mathlib's extended reals with the idealised exponential ("exp ⊥ = 0", so a logit of
  minus infinity has weight zero) and the idealised division.  Multiplication does not distribute over addition
  on all of the extended reals, so every step that needs distributivity is carried out on real numbers: the
  weights "exp (z - m)" with "z" a real or minus infinity and "m" a real are real numbers, and the sums are
  coercions of real sums.

  Contents: (A) finite sums of products of reals are reals; (B) a scale factor "1/c" applied to one side of a
  dot product equals dividing the dot product by "c"; (C) the rescaling identities for the exponential;
  (D) the one-pass recurrence and the theorem that it computes the softmax-weighted sum; (E) re-indexing a
  row of 4096 entries as 8 tiles of 512.
-/
import Mathlib.Data.EReal.Inv
import Mathlib.Data.Fintype.BigOperators
import Mathlib.Data.Finset.Lattice.Fold
import Mathlib.Data.Finset.Lattice.Prod
import Mathlib.Data.Finset.Fold
import Mathlib.Algebra.Order.BigOperators.Group.Finset
import Mathlib.Analysis.SpecialFunctions.Exp
import Idealize.ShloMosaic.PureOps.Ideal

noncomputable section

namespace OnlineSoftmax

open Idealize.ShloMosaic
open scoped BigOperators

/-! ### Coercions and folds -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Folding the maximum from the bottom element is the finite supremum. -/
theorem fold_max_bot_eq_sup {ι : Type*} (s : Finset ι) (f : ι → EReal) :
    s.fold max ⊥ f = s.sup f := by
  apply le_antisymm
  · rw [Finset.fold_max_le]
    exact ⟨bot_le, fun x hx => Finset.le_sup hx⟩
  · rw [Finset.sup_le_iff]
    intro x hx
    rw [Finset.le_fold_max]
    exact Or.inr ⟨x, hx, le_rfl⟩

/-! ### (A) Finiteness closure -/

/-- A finite sum of products of two families of reals is the coercion of the real sum of products. -/
theorem sum_mul_eq_coe {ι : Type*} (s : Finset ι) (f g : ι → EReal)
    (hf : ∀ i ∈ s, ∃ r : ℝ, f i = (r : EReal)) (hg : ∀ i ∈ s, ∃ r : ℝ, g i = (r : EReal)) :
    ∑ i ∈ s, f i * g i = ((∑ i ∈ s, (f i).toReal * (g i).toReal : ℝ) : EReal) := by
  rw [coe_sum]
  refine Finset.sum_congr rfl fun i hi => ?_
  obtain ⟨a, ha⟩ := hf i hi
  obtain ⟨b, hb⟩ := hg i hi
  rw [ha, hb, EReal.toReal_coe, EReal.toReal_coe, EReal.coe_mul]

/-- (A) A finite sum of products of two families each of whose members is a real is a real. -/
theorem isReal_sum_mul {ι : Type*} (s : Finset ι) (f g : ι → EReal)
    (hf : ∀ i ∈ s, ∃ r : ℝ, f i = (r : EReal)) (hg : ∀ i ∈ s, ∃ r : ℝ, g i = (r : EReal)) :
    ∃ r : ℝ, ∑ i ∈ s, f i * g i = (r : EReal) :=
  ⟨_, sum_mul_eq_coe s f g hf hg⟩

/-- (A), over a whole finite type. -/
theorem isReal_sum_mul_univ {ι : Type*} [Fintype ι] (f g : ι → EReal)
    (hf : ∀ i, ∃ r : ℝ, f i = (r : EReal)) (hg : ∀ i, ∃ r : ℝ, g i = (r : EReal)) :
    ∃ r : ℝ, ∑ i, f i * g i = (r : EReal) :=
  isReal_sum_mul Finset.univ f g (fun i _ => hf i) (fun i _ => hg i)

/-- A finite sum of reals is a real. -/
theorem isReal_sum {ι : Type*} (s : Finset ι) (f : ι → EReal)
    (hf : ∀ i ∈ s, ∃ r : ℝ, f i = (r : EReal)) : ∃ r : ℝ, ∑ i ∈ s, f i = (r : EReal) := by
  refine ⟨∑ i ∈ s, (f i).toReal, ?_⟩
  rw [coe_sum]
  refine Finset.sum_congr rfl fun i hi => ?_
  obtain ⟨a, ha⟩ := hf i hi
  rw [ha, EReal.toReal_coe]

/-! ### (B) The scale law -/

/-- (B) Scaling one factor of every product by the real "1/c" divides the sum of products by "c". -/
theorem sum_scale_mul_eq_div {ι : Type*} [Fintype ι] (a b : ι → EReal) (c : ℝ) (hc : c ≠ 0)
    (ha : ∀ i, ∃ r : ℝ, a i = (r : EReal)) (hb : ∀ i, ∃ r : ℝ, b i = (r : EReal)) :
    ∑ i, (a i * ((1 / c : ℝ) : EReal)) * b i = Ideal.div (∑ i, a i * b i) ((c : ℝ) : EReal) := by
  choose ra hra using ha
  choose rb hrb using hb
  obtain rfl : a = fun i => (ra i : EReal) := funext hra
  obtain rfl : b = fun i => (rb i : EReal) := funext hrb
  rw [Ideal.div_coe hc]
  simp only [← EReal.coe_mul]
  rw [← coe_sum, ← coe_sum, ← EReal.coe_mul, Finset.sum_mul]
  congr 1
  refine Finset.sum_congr rfl fun i _ => ?_
  ring

/-- (B) at the scale 32: the sum of "(a i * (1/32)) * b i" is the sum of "a i * b i" divided by 32. -/
theorem sum_scale32_mul_eq_div {ι : Type*} [Fintype ι] (a b : ι → EReal)
    (ha : ∀ i, ∃ r : ℝ, a i = (r : EReal)) (hb : ∀ i, ∃ r : ℝ, b i = (r : EReal)) :
    ∑ i, (a i * ((1 / 32 : ℝ) : EReal)) * b i = Ideal.div (∑ i, a i * b i) ((32 : ℝ) : EReal) :=
  sum_scale_mul_eq_div a b 32 (by norm_num) ha hb

/-! ### (C) Rescaling identities for the exponential -/

/-- The exponential of minus infinity less a real is zero. -/
theorem exp_bot_sub_coe (m : ℝ) : Ideal.exp ((⊥ : EReal) - (m : EReal)) = 0 := by
  rw [EReal.bot_sub, Ideal.exp_bot]

/-- The exponential of a real less itself is one. -/
theorem exp_coe_sub_self (m : ℝ) : Ideal.exp ((m : EReal) - (m : EReal)) = 1 := by
  rw [← EReal.coe_sub, sub_self, Ideal.exp_coe, Real.exp_zero, EReal.coe_one]

/-- The exponential of a difference of reals is the real exponential of the difference. -/
theorem exp_coe_sub_coe (r m : ℝ) :
    Ideal.exp ((r : EReal) - (m : EReal)) = ((Real.exp (r - m) : ℝ) : EReal) := by
  rw [← EReal.coe_sub, Ideal.exp_coe]

/-- (C) Rescaling: "exp (m0 - m1) * exp (z - m0) = exp (z - m1)" for reals "m0 m1" and "z" a real or
    minus infinity. -/
theorem exp_rescale (m0 m1 : ℝ) (z : EReal) (hz : z = ⊥ ∨ ∃ r : ℝ, z = (r : EReal)) :
    Ideal.exp ((m0 : EReal) - (m1 : EReal)) * Ideal.exp (z - (m0 : EReal)) =
      Ideal.exp (z - (m1 : EReal)) := by
  rcases hz with rfl | ⟨r, rfl⟩
  · rw [EReal.bot_sub, EReal.bot_sub, Ideal.exp_bot, mul_zero]
  · rw [exp_coe_sub_coe, exp_coe_sub_coe, exp_coe_sub_coe, ← EReal.coe_mul, ← Real.exp_add]
    have h : m0 - m1 + (r - m0) = r - m1 := by ring
    rw [h]

/-- The real weight "exp (x - m)" of a logit "x" against a real maximum "m". -/
def wt (x : EReal) (m : ℝ) : ℝ := (Ideal.exp (x - (m : EReal))).toReal

/-- A logit of minus infinity has weight zero. -/
theorem wt_bot (m : ℝ) : wt ⊥ m = 0 := by
  rw [wt, EReal.bot_sub, Ideal.exp_bot, EReal.toReal_zero]

/-- A real logit "r" has weight "exp (r - m)". -/
theorem wt_coe (r m : ℝ) : wt (r : EReal) m = Real.exp (r - m) := by
  rw [wt, exp_coe_sub_coe, EReal.toReal_coe]

/-- For a logit that is a real or minus infinity the exponential is the coercion of the real weight. -/
theorem exp_sub_coe_eq_wt {x : EReal} (hx : x = ⊥ ∨ ∃ r : ℝ, x = (r : EReal)) (m : ℝ) :
    Ideal.exp (x - (m : EReal)) = ((wt x m : ℝ) : EReal) := by
  rcases hx with rfl | ⟨r, rfl⟩
  · rw [wt_bot, EReal.bot_sub, Ideal.exp_bot, EReal.coe_zero]
  · rw [wt_coe, exp_coe_sub_coe]

/-- Weights are nonnegative. -/
theorem wt_nonneg {x : EReal} (hx : x = ⊥ ∨ ∃ r : ℝ, x = (r : EReal)) (m : ℝ) : 0 ≤ wt x m := by
  rcases hx with rfl | ⟨r, rfl⟩
  · rw [wt_bot]
  · rw [wt_coe]; exact (Real.exp_pos _).le

/-- Rescaling of real weights: "exp (m0 - m1) * wt x m0 = wt x m1". -/
theorem wt_rescale {x : EReal} (hx : x = ⊥ ∨ ∃ r : ℝ, x = (r : EReal)) (m0 m1 : ℝ) :
    Real.exp (m0 - m1) * wt x m0 = wt x m1 := by
  rcases hx with rfl | ⟨r, rfl⟩
  · rw [wt_bot, wt_bot, mul_zero]
  · rw [wt_coe, wt_coe, ← Real.exp_add]
    have h : m0 - m1 + (r - m0) = r - m1 := by ring
    rw [h]

/-! ### (D) The one-pass recurrence -/

/-- The running state: maximum, denominator, weighted accumulator. -/
structure St where
  /-- the running maximum -/
  m : EReal
  /-- the running denominator -/
  l : EReal
  /-- the running weighted accumulator -/
  acc : EReal

/-- The state before any tile: maximum minus infinity, denominator and accumulator zero. -/
def init : St := ⟨⊥, 0, 0⟩

/-- Processing one tile of logits "z" and values "v". -/
def step {w : ℕ} (z v : Fin w → EReal) (s : St) : St :=
  let m' := max s.m (Finset.univ.fold max ⊥ z)
  let a := Ideal.exp (s.m - m')
  ⟨m', a * s.l + ∑ c, Ideal.exp (z c - m'), a * s.acc + ∑ c, Ideal.exp (z c - m') * v c⟩

/-- The state after the first "j" tiles; a tile with "act" false is skipped. -/
def run {n w : ℕ} (z v : Fin n → Fin w → EReal) (act : Fin n → Bool) : ℕ → St
  | 0 => init
  | j + 1 =>
    if h : j < n then
      (if act ⟨j, h⟩ then step (z ⟨j, h⟩) (v ⟨j, h⟩) (run z v act j) else run z v act j)
    else run z v act j

section Run

variable {n w : ℕ} (z v : Fin n → Fin w → EReal) (act : Fin n → Bool)

/-- Before any tile the state is the initial one. -/
theorem run_zero : run z v act 0 = init := rfl

/-- A processed tile applies one step. -/
theorem run_succ_act (t : Fin n) (h : act t = true) :
    run z v act (t.val + 1) = step (z t) (v t) (run z v act t.val) := by
  rw [run, dif_pos t.isLt]
  simp only [Fin.eta, h, if_true]

/-- A skipped tile leaves the state unchanged. -/
theorem run_succ_not_act (t : Fin n) (h : act t = false) :
    run z v act (t.val + 1) = run z v act t.val := by
  rw [run, dif_pos t.isLt]
  simp only [Fin.eta, h, Bool.false_eq_true, if_false]

end Run

/-- One step on a state whose denominator and accumulator are reals, with the new maximum a real "m'" and
    the rescaling factor a real "ρ": the new state in real terms. -/
theorem step_eq {w : ℕ} (zt vt : Fin w → EReal) (s : St) (m' ρ lr ar : ℝ) (vr : Fin w → ℝ)
    (hzt : ∀ c, zt c = ⊥ ∨ ∃ r : ℝ, zt c = (r : EReal)) (hvt : ∀ c, vt c = (vr c : EReal))
    (hm : max s.m (Finset.univ.fold max ⊥ zt) = (m' : EReal))
    (hρ : Ideal.exp (s.m - (m' : EReal)) = (ρ : EReal))
    (hl : s.l = (lr : EReal)) (ha : s.acc = (ar : EReal)) :
    step zt vt s = ⟨(m' : EReal), ((ρ * lr + ∑ c, wt (zt c) m' : ℝ) : EReal),
      ((ρ * ar + ∑ c, wt (zt c) m' * vr c : ℝ) : EReal)⟩ := by
  have e1 : ∀ c, Ideal.exp (zt c - (m' : EReal)) = ((wt (zt c) m' : ℝ) : EReal) :=
    fun c => exp_sub_coe_eq_wt (hzt c) m'
  simp only [step, hm, hρ, hl, ha, e1, hvt, ← EReal.coe_mul, ← coe_sum, ← EReal.coe_add]

/-- The first "j" of "n" tiles. -/
def pre (n j : ℕ) : Finset (Fin n) := Finset.univ.filter fun i => i.val < j

/-- No tile precedes the first. -/
theorem pre_zero (n : ℕ) : pre n 0 = ∅ := by
  ext i; simp [pre]

/-- The first "j + 1" tiles are tile "j" together with the first "j". -/
theorem pre_succ {n : ℕ} (j : ℕ) (h : j < n) : pre n (j + 1) = insert ⟨j, h⟩ (pre n j) := by
  ext i
  simp only [pre, Finset.mem_filter, Finset.mem_univ, true_and, Finset.mem_insert, Fin.ext_iff]
  omega

/-- Tile "j" is not among the first "j". -/
theorem not_mem_pre_self {n : ℕ} (j : ℕ) (h : j < n) : (⟨j, h⟩ : Fin n) ∉ pre n j := by
  simp [pre]

/-- The first "n" tiles are all of them. -/
theorem pre_full (n : ℕ) : pre n n = Finset.univ := by
  ext i; simp [pre]

/-- (D) THE ONLINE-SOFTMAX THEOREM.  Logits are reals or minus infinity, values are reals, the first tile is
    processed and its first logit is a real, and a skipped tile is wholly minus infinity.  Then the
    accumulator over the denominator after all "n" tiles is the softmax-weighted sum of the values taken
    with the maximum "M" and the denominator "L" of the whole row. -/
theorem online_softmax {n w : ℕ} (z v : Fin n → Fin w → EReal) (act : Fin n → Bool)
    (hz : ∀ j c, z j c = ⊥ ∨ ∃ r : ℝ, z j c = (r : EReal))
    (hv : ∀ j c, ∃ r : ℝ, v j c = (r : EReal))
    (hn : 0 < n) (hw : 0 < w)
    (hact0 : act ⟨0, hn⟩ = true)
    (hz00 : ∃ r : ℝ, z ⟨0, hn⟩ ⟨0, hw⟩ = (r : EReal))
    (hmask : ∀ j, act j = false → ∀ c, z j c = ⊥) :
    Ideal.div (run z v act n).acc (run z v act n).l =
      ∑ p : Fin n × Fin w,
        Ideal.div
          (Ideal.exp (z p.1 p.2 - Finset.univ.fold max ⊥ (fun q : Fin n × Fin w => z q.1 q.2)))
          (∑ p' : Fin n × Fin w,
            Ideal.exp (z p'.1 p'.2 - Finset.univ.fold max ⊥ (fun q : Fin n × Fin w => z q.1 q.2)))
          * v p.1 p.2 := by
  classical
  choose vr hvr using hv
  have hztop : ∀ j c, z j c ≠ ⊤ := by
    intro j c
    rcases hz j c with h | ⟨r, h⟩
    · rw [h]; exact bot_ne_top
    · rw [h]; exact EReal.coe_ne_top r
  -- the maximum of one tile
  let T : Fin n → EReal := fun i => Finset.univ.sup (z i)
  have hTtop : ∀ i, T i < ⊤ := fun i =>
    (Finset.sup_lt_iff bot_lt_top).2 fun c _ => lt_top_iff_ne_top.2 (hztop i c)
  -- the invariant after "j + 1" tiles: the maximum is a real, equal to the maximum over the prefix, and the
  -- denominator and the accumulator are the prefix sums of the weights taken with that maximum
  have inv : ∀ j, j < n → ∃ mr lr ar : ℝ,
      run z v act (j + 1) = ⟨(mr : EReal), (lr : EReal), (ar : EReal)⟩ ∧
      (mr : EReal) = (pre n (j + 1)).sup T ∧
      lr = ∑ i ∈ pre n (j + 1), ∑ c, wt (z i c) mr ∧
      ar = ∑ i ∈ pre n (j + 1), ∑ c, wt (z i c) mr * vr i c := by
    intro j
    induction j with
    | zero =>
      intro _
      obtain ⟨r0, hr0⟩ := hz00
      have hT0bot : T ⟨0, hn⟩ ≠ ⊥ := by
        have h1 : z ⟨0, hn⟩ ⟨0, hw⟩ ≤ T ⟨0, hn⟩ :=
          Finset.le_sup (f := z ⟨0, hn⟩) (Finset.mem_univ _)
        rw [hr0] at h1
        exact ne_bot_of_le_ne_bot (EReal.coe_ne_bot r0) h1
      have hT0 : T ⟨0, hn⟩ = (((T ⟨0, hn⟩).toReal : ℝ) : EReal) :=
        (EReal.coe_toReal (hTtop _).ne hT0bot).symm
      have hrun : run z v act (0 + 1) =
          ⟨(((T ⟨0, hn⟩).toReal : ℝ) : EReal),
            ((0 * 0 + ∑ c, wt (z ⟨0, hn⟩ c) (T ⟨0, hn⟩).toReal : ℝ) : EReal),
            ((0 * 0 + ∑ c, wt (z ⟨0, hn⟩ c) (T ⟨0, hn⟩).toReal * vr ⟨0, hn⟩ c : ℝ) : EReal)⟩ := by
        refine (run_succ_act z v act ⟨0, hn⟩ hact0).trans ?_
        refine step_eq (z ⟨0, hn⟩) (v ⟨0, hn⟩) _ _ 0 0 0 (vr ⟨0, hn⟩) (hz _) (hvr _) ?_ ?_ ?_ ?_
        · show max (⊥ : EReal) (Finset.univ.fold max ⊥ (z ⟨0, hn⟩)) = _
          rw [fold_max_bot_eq_sup, max_bot_left]
          exact hT0
        · show Ideal.exp ((⊥ : EReal) - _) = _
          rw [EReal.bot_sub, Ideal.exp_bot, EReal.coe_zero]
        · exact EReal.coe_zero.symm
        · exact EReal.coe_zero.symm
      refine ⟨_, _, _, hrun, ?_, ?_, ?_⟩
      · rw [pre_succ 0 hn, pre_zero, Finset.sup_insert, Finset.sup_empty, sup_bot_eq]
        exact hT0.symm
      · simp [pre_succ 0 hn, pre_zero]
      · simp [pre_succ 0 hn, pre_zero]
    | succ j ih =>
      intro hj
      obtain ⟨mr, lr, ar, hrun, hpm, hlr, har⟩ := ih (Nat.lt_of_succ_lt hj)
      by_cases hat : act ⟨j + 1, hj⟩ = true
      · -- a processed tile
        have hne_top : max (mr : EReal) (T ⟨j + 1, hj⟩) ≠ ⊤ :=
          (max_lt (EReal.coe_lt_top mr) (hTtop _)).ne
        have hne_bot : max (mr : EReal) (T ⟨j + 1, hj⟩) ≠ ⊥ :=
          ne_bot_of_le_ne_bot (EReal.coe_ne_bot mr) (le_max_left _ _)
        obtain ⟨m1, hm1⟩ : ∃ m1 : ℝ, max (mr : EReal) (T ⟨j + 1, hj⟩) = (m1 : EReal) :=
          ⟨_, (EReal.coe_toReal hne_top hne_bot).symm⟩
        have hrun' : run z v act (j + 1 + 1) =
            ⟨(m1 : EReal),
              ((Real.exp (mr - m1) * lr + ∑ c, wt (z ⟨j + 1, hj⟩ c) m1 : ℝ) : EReal),
              ((Real.exp (mr - m1) * ar + ∑ c, wt (z ⟨j + 1, hj⟩ c) m1 * vr ⟨j + 1, hj⟩ c : ℝ) :
                EReal)⟩ := by
          refine (run_succ_act z v act ⟨j + 1, hj⟩ hat).trans ?_
          show step (z ⟨j + 1, hj⟩) (v ⟨j + 1, hj⟩) (run z v act (j + 1)) = _
          rw [hrun]
          refine step_eq (z ⟨j + 1, hj⟩) (v ⟨j + 1, hj⟩) _ m1 (Real.exp (mr - m1)) lr ar
            (vr ⟨j + 1, hj⟩) (hz _) (hvr _) ?_ (exp_coe_sub_coe mr m1) rfl rfl
          show max (mr : EReal) (Finset.univ.fold max ⊥ (z ⟨j + 1, hj⟩)) = _
          rw [fold_max_bot_eq_sup]
          exact hm1
        refine ⟨m1, _, _, hrun', ?_, ?_, ?_⟩
        · rw [pre_succ (j + 1) hj, Finset.sup_insert, ← hpm, ← hm1, max_comm]
        · rw [pre_succ (j + 1) hj, Finset.sum_insert (not_mem_pre_self _ hj), hlr, Finset.mul_sum,
            add_comm]
          congr 1
          refine Finset.sum_congr rfl fun i _ => ?_
          rw [Finset.mul_sum]
          exact Finset.sum_congr rfl fun c _ => wt_rescale (hz i c) mr m1
        · rw [pre_succ (j + 1) hj, Finset.sum_insert (not_mem_pre_self _ hj), har, Finset.mul_sum,
            add_comm]
          congr 1
          refine Finset.sum_congr rfl fun i _ => ?_
          rw [Finset.mul_sum]
          refine Finset.sum_congr rfl fun c _ => ?_
          rw [← mul_assoc, wt_rescale (hz i c) mr m1]
      · -- a skipped tile: all its logits are minus infinity
        have hat' : act ⟨j + 1, hj⟩ = false := by simpa using hat
        have hzt : ∀ c, z ⟨j + 1, hj⟩ c = ⊥ := hmask _ hat'
        have hTt : T ⟨j + 1, hj⟩ = ⊥ := (Finset.sup_eq_bot_iff _ _).2 fun c _ => hzt c
        refine ⟨mr, lr, ar, ?_, ?_, ?_, ?_⟩
        · exact (run_succ_not_act z v act ⟨j + 1, hj⟩ hat').trans hrun
        · rw [pre_succ (j + 1) hj, Finset.sup_insert, hTt, bot_sup_eq]
          exact hpm
        · rw [pre_succ (j + 1) hj, Finset.sum_insert (not_mem_pre_self _ hj), hlr]
          simp [hzt, wt_bot]
        · rw [pre_succ (j + 1) hj, Finset.sum_insert (not_mem_pre_self _ hj), har]
          simp [hzt, wt_bot]
  -- after all tiles
  obtain ⟨mr, lr, ar, hrun, hpm, hlr, har⟩ := inv (n - 1) (by omega)
  have hn1 : n - 1 + 1 = n := by omega
  rw [hn1] at hrun hpm hlr har
  rw [pre_full] at hpm hlr har
  have hM : Finset.univ.fold max ⊥ (fun q : Fin n × Fin w => z q.1 q.2) = (mr : EReal) := by
    rw [fold_max_bot_eq_sup, hpm, ← Finset.univ_product_univ, Finset.sup_product_left]
  have hE : ∀ p : Fin n × Fin w,
      Ideal.exp (z p.1 p.2 - (mr : EReal)) = ((wt (z p.1 p.2) mr : ℝ) : EReal) :=
    fun p => exp_sub_coe_eq_wt (hz _ _) mr
  have hlr' : lr = ∑ p : Fin n × Fin w, wt (z p.1 p.2) mr := by
    rw [hlr, Fintype.sum_prod_type]
  have har' : ar = ∑ p : Fin n × Fin w, wt (z p.1 p.2) mr * vr p.1 p.2 := by
    rw [har, Fintype.sum_prod_type]
  have hlpos : 0 < lr := by
    rw [hlr']
    obtain ⟨r0, hr0⟩ := hz00
    refine Finset.sum_pos' (fun p _ => wt_nonneg (hz _ _) mr)
      ⟨(⟨0, hn⟩, ⟨0, hw⟩), Finset.mem_univ _, ?_⟩
    show 0 < wt (z ⟨0, hn⟩ ⟨0, hw⟩) mr
    rw [hr0, wt_coe]
    exact Real.exp_pos _
  rw [hM, hrun]
  show Ideal.div (ar : EReal) (lr : EReal) = _
  simp only [hE, hvr, ← coe_sum, ← hlr', Ideal.div_coe hlpos.ne', ← EReal.coe_mul]
  rw [har', Finset.sum_mul]
  congr 1
  refine Finset.sum_congr rfl fun p _ => ?_
  ring

/-! ### (E) Re-indexing a row of 4096 entries as 8 tiles of 512 -/

/-- Tile "i" and column "c" address entry "512 * i + c" of the row. -/
def tileEquiv : Fin 8 × Fin 512 ≃ Fin 4096 where
  toFun p := ⟨512 * p.1.val + p.2.val, by have := p.1.isLt; have := p.2.isLt; omega⟩
  invFun k := (⟨k.val / 512, by have := k.isLt; omega⟩, ⟨k.val % 512, by omega⟩)
  left_inv p := by
    have h1 := p.1.isLt
    have h2 := p.2.isLt
    apply Prod.ext <;> apply Fin.ext <;> simp only [] <;> omega
  right_inv k := by
    apply Fin.ext
    simp only []
    omega

/-- Folding the maximum over a finite type is unchanged by re-indexing along an equivalence. -/
theorem fold_max_equiv {ι κ : Type*} [Fintype ι] [Fintype κ] (e : ι ≃ κ) (f : κ → EReal) :
    Finset.univ.fold max ⊥ (fun i => f (e i)) = Finset.univ.fold max ⊥ f := by
  rw [fold_max_bot_eq_sup, fold_max_bot_eq_sup]
  apply le_antisymm
  · exact Finset.sup_le fun i _ => Finset.le_sup (f := f) (Finset.mem_univ (e i))
  · refine Finset.sup_le fun k _ => ?_
    have h := Finset.le_sup (f := fun i => f (e i)) (Finset.mem_univ (e.symm k))
    simpa using h

/-- (E) A sum over 4096 keys is the sum over 8 tiles of 512 keys. -/
theorem sum_tiles {α : Type*} [AddCommMonoid α] (f : Fin 4096 → α) :
    ∑ k, f k = ∑ p : Fin 8 × Fin 512, f ⟨512 * p.1.val + p.2.val, by omega⟩ :=
  (Equiv.sum_comp tileEquiv f).symm

/-- (E) The maximum over 4096 keys is the maximum over 8 tiles of 512 keys. -/
theorem fold_max_tiles (f : Fin 4096 → EReal) :
    Finset.univ.fold max ⊥ f =
      Finset.univ.fold max ⊥ (fun p : Fin 8 × Fin 512 => f ⟨512 * p.1.val + p.2.val, by omega⟩) :=
  (fold_max_equiv tileEquiv f).symm

end OnlineSoftmax

end
-- ==== Proof.LibRunningStats.lean ====
/-
  Running maximum and running sum of shifted exponentials, in one pass over tiles.

  For a row of logits the two numbers a softmax or a log-sum-exp needs are the row's maximum "M" and the sum
  "L" of "exp (x - M)" over the entries "x" of the row.  They can be computed in one pass over tiles of the
  row, keeping a running pair "(m, l)": a tile "z" raises the maximum from "m" to "m' = max m (max z)", and
  the old sum is multiplied by "exp (m - m')" before the tile's own terms "exp (z c - m')" are added, because
  "exp (m - m') * exp (x - m) = exp (x - m')".

  Everything is stated on Mathlib's extended reals with the idealised exponential ("exp ⊥ = 0", so an entry
  of minus infinity has weight zero).  Multiplication does not distribute over addition on all of the
  extended reals, so the step that needs distributivity is carried out on real numbers: the weights
  "exp (x - m)" with "x" a real or minus infinity and "m" a real are real numbers, and the sums are coercions
  of real sums.

  Contents: (A) the recurrence "step" / "run"; (B) the invariant: after "j + 1" tiles the maximum is a real,
  the maximum over those tiles, and the sum is the real sum of the weights of those tiles taken with that
  maximum; (C) a row of "V" reals laid out as "n" tiles of "w" columns and padded with minus infinity: the
  maximum and every weighted sum of the padded layout are those of the row; (D) the theorem for a padded row.
-/
import Mathlib.Data.EReal.Inv
import Mathlib.Data.Fintype.BigOperators
import Mathlib.Data.Finset.Lattice.Fold
import Mathlib.Data.Finset.Lattice.Prod
import Mathlib.Data.Finset.Fold
import Mathlib.Data.Finset.Range
import Mathlib.Logic.Equiv.Fin.Basic
import Mathlib.Algebra.Order.BigOperators.Group.Finset
import Mathlib.Analysis.SpecialFunctions.Exp
import Idealize.ShloMosaic.PureOps.Ideal
import proofs.«150779_j43817256354170_1_alg».proof.Proof.LibOnlineSoftmax

noncomputable section

namespace RunningStats

open Idealize.ShloMosaic
open OnlineSoftmax (coe_sum fold_max_bot_eq_sup exp_coe_sub_coe wt wt_bot wt_coe exp_sub_coe_eq_wt
  wt_nonneg wt_rescale pre pre_zero pre_succ not_mem_pre_self pre_full)
open scoped BigOperators

/-! ### (A) The recurrence -/

/-- Processing one tile "z": the maximum becomes "max m (max z)", the old sum is rescaled by
    "exp (m - m')" and the tile's terms "exp (z c - m')" are added. -/
def step {w : ℕ} (z : Fin w → EReal) (s : EReal × EReal) : EReal × EReal :=
  (max s.1 (Finset.univ.fold max ⊥ z),
   Ideal.exp (s.1 - max s.1 (Finset.univ.fold max ⊥ z)) * s.2
     + ∑ c, Ideal.exp (z c - max s.1 (Finset.univ.fold max ⊥ z)))

/-- The pair (maximum, sum) after the first "j" tiles; before any tile it is (minus infinity, zero). -/
def run {n w : ℕ} (z : Fin n → Fin w → EReal) : ℕ → EReal × EReal
  | 0 => (⊥, 0)
  | j + 1 => if h : j < n then step (z ⟨j, h⟩) (run z j) else run z j

/-- Before any tile the pair is (minus infinity, zero). -/
theorem run_zero {n w : ℕ} (z : Fin n → Fin w → EReal) : run z 0 = (⊥, 0) := rfl

/-- Tile "t" applies one step to the pair after the first "t" tiles. -/
theorem run_succ {n w : ℕ} (z : Fin n → Fin w → EReal) (t : Fin n) :
    run z (t.val + 1) = step (z t) (run z t.val) := by
  rw [run, dif_pos t.isLt]

/-- One step on a pair whose sum is a real "lr", with the new maximum a real "m'" and the rescaling factor
    a real "ρ": the new pair in real terms. -/
theorem step_eq {w : ℕ} (zt : Fin w → EReal) (s : EReal × EReal) (m' ρ lr : ℝ)
    (hzt : ∀ c, zt c = ⊥ ∨ ∃ r : ℝ, zt c = (r : EReal))
    (hm : max s.1 (Finset.univ.fold max ⊥ zt) = (m' : EReal))
    (hρ : Ideal.exp (s.1 - (m' : EReal)) = (ρ : EReal))
    (hl : s.2 = (lr : EReal)) :
    step zt s = ((m' : EReal), ((ρ * lr + ∑ c, wt (zt c) m' : ℝ) : EReal)) := by
  have e1 : ∀ c, Ideal.exp (zt c - (m' : EReal)) = ((wt (zt c) m' : ℝ) : EReal) :=
    fun c => exp_sub_coe_eq_wt (hzt c) m'
  simp only [step, hm, hρ, hl, e1, ← EReal.coe_mul, ← coe_sum, ← EReal.coe_add]

/-! ### (B) The invariant -/

/-- (B) Entries are reals or minus infinity and the very first entry is a real.  Then after "j + 1" tiles
    the maximum is a real "mr", equal to the maximum over those tiles, and the sum is the real sum over those
    tiles of the weights "exp (z i c - mr)". -/
theorem run_prefix {n w : ℕ} (z : Fin n → Fin w → EReal)
    (hz : ∀ j c, z j c = ⊥ ∨ ∃ r : ℝ, z j c = (r : EReal))
    (hn : 0 < n) (hw : 0 < w)
    (hz00 : ∃ r : ℝ, z ⟨0, hn⟩ ⟨0, hw⟩ = (r : EReal)) :
    ∀ j, j < n → ∃ mr lr : ℝ,
      run z (j + 1) = ((mr : EReal), (lr : EReal)) ∧
      (mr : EReal) = (pre n (j + 1)).sup (fun i => Finset.univ.sup (z i)) ∧
      lr = ∑ i ∈ pre n (j + 1), ∑ c, wt (z i c) mr := by
  classical
  have hztop : ∀ j c, z j c ≠ ⊤ := by
    intro j c
    rcases hz j c with h | ⟨r, h⟩
    · rw [h]; exact bot_ne_top
    · rw [h]; exact EReal.coe_ne_top r
  -- the maximum of one tile
  let T : Fin n → EReal := fun i => Finset.univ.sup (z i)
  have hTtop : ∀ i, T i < ⊤ := fun i =>
    (Finset.sup_lt_iff bot_lt_top).2 fun c _ => lt_top_iff_ne_top.2 (hztop i c)
  intro j
  induction j with
  | zero =>
    intro _
    obtain ⟨r0, hr0⟩ := hz00
    have hT0bot : T ⟨0, hn⟩ ≠ ⊥ := by
      have h1 : z ⟨0, hn⟩ ⟨0, hw⟩ ≤ T ⟨0, hn⟩ :=
        Finset.le_sup (f := z ⟨0, hn⟩) (Finset.mem_univ _)
      rw [hr0] at h1
      exact ne_bot_of_le_ne_bot (EReal.coe_ne_bot r0) h1
    have hT0 : T ⟨0, hn⟩ = (((T ⟨0, hn⟩).toReal : ℝ) : EReal) :=
      (EReal.coe_toReal (hTtop _).ne hT0bot).symm
    have hrun : run z (0 + 1) =
        ((((T ⟨0, hn⟩).toReal : ℝ) : EReal),
          ((0 * 0 + ∑ c, wt (z ⟨0, hn⟩ c) (T ⟨0, hn⟩).toReal : ℝ) : EReal)) := by
      refine (run_succ z ⟨0, hn⟩).trans ?_
      refine step_eq (z ⟨0, hn⟩) _ _ 0 0 (hz _) ?_ ?_ ?_
      · show max (⊥ : EReal) (Finset.univ.fold max ⊥ (z ⟨0, hn⟩)) = _
        rw [fold_max_bot_eq_sup, max_bot_left]
        exact hT0
      · show Ideal.exp ((⊥ : EReal) - _) = _
        rw [EReal.bot_sub, Ideal.exp_bot, EReal.coe_zero]
      · exact EReal.coe_zero.symm
    refine ⟨_, _, hrun, ?_, ?_⟩
    · rw [pre_succ 0 hn, pre_zero, Finset.sup_insert, Finset.sup_empty, sup_bot_eq]
      exact hT0.symm
    · simp [pre_succ 0 hn, pre_zero]
  | succ j ih =>
    intro hj
    obtain ⟨mr, lr, hrun, hpm, hlr⟩ := ih (Nat.lt_of_succ_lt hj)
    have hne_top : max (mr : EReal) (T ⟨j + 1, hj⟩) ≠ ⊤ :=
      (max_lt (EReal.coe_lt_top mr) (hTtop _)).ne
    have hne_bot : max (mr : EReal) (T ⟨j + 1, hj⟩) ≠ ⊥ :=
      ne_bot_of_le_ne_bot (EReal.coe_ne_bot mr) (le_max_left _ _)
    obtain ⟨m1, hm1⟩ : ∃ m1 : ℝ, max (mr : EReal) (T ⟨j + 1, hj⟩) = (m1 : EReal) :=
      ⟨_, (EReal.coe_toReal hne_top hne_bot).symm⟩
    have hrun' : run z (j + 1 + 1) =
        ((m1 : EReal), ((Real.exp (mr - m1) * lr + ∑ c, wt (z ⟨j + 1, hj⟩ c) m1 : ℝ) : EReal)) := by
      refine (run_succ z ⟨j + 1, hj⟩).trans ?_
      show step (z ⟨j + 1, hj⟩) (run z (j + 1)) = _
      rw [hrun]
      refine step_eq (z ⟨j + 1, hj⟩) _ m1 (Real.exp (mr - m1)) lr (hz _) ?_
        (exp_coe_sub_coe mr m1) rfl
      show max (mr : EReal) (Finset.univ.fold max ⊥ (z ⟨j + 1, hj⟩)) = _
      rw [fold_max_bot_eq_sup]
      exact hm1
    refine ⟨m1, _, hrun', ?_, ?_⟩
    · rw [pre_succ (j + 1) hj, Finset.sup_insert, ← hpm, ← hm1, max_comm]
    · rw [pre_succ (j + 1) hj, Finset.sum_insert (not_mem_pre_self _ hj), hlr, Finset.mul_sum,
        add_comm]
      congr 1
      refine Finset.sum_congr rfl fun i _ => ?_
      rw [Finset.mul_sum]
      exact Finset.sum_congr rfl fun c _ => wt_rescale (hz i c) mr m1

/-- (B) After all "n" tiles: the maximum is a real "mr", the maximum over the whole grid, and the sum is the
    real sum over the whole grid of the weights "exp (z i c - mr)". -/
theorem run_grid {n w : ℕ} (z : Fin n → Fin w → EReal)
    (hz : ∀ j c, z j c = ⊥ ∨ ∃ r : ℝ, z j c = (r : EReal))
    (hn : 0 < n) (hw : 0 < w)
    (hz00 : ∃ r : ℝ, z ⟨0, hn⟩ ⟨0, hw⟩ = (r : EReal)) :
    ∃ mr : ℝ,
      (run z n).1 = (mr : EReal) ∧
      (mr : EReal) = Finset.univ.sup (fun i => Finset.univ.sup (z i)) ∧
      (run z n).2 = ((∑ i, ∑ c, wt (z i c) mr : ℝ) : EReal) := by
  obtain ⟨mr, lr, hrun, hpm, hlr⟩ := run_prefix z hz hn hw hz00 (n - 1) (by omega)
  have hn1 : n - 1 + 1 = n := by omega
  rw [hn1] at hrun hpm hlr
  rw [pre_full] at hpm hlr
  refine ⟨mr, ?_, hpm, ?_⟩
  · rw [hrun]
  · rw [hrun, hlr]

/-! ### (C) A padded row -/

/-- A row of "V" entries laid out as "n" tiles of "w" columns, padded with minus infinity: tile "j", column
    "c" holds entry "j * w + c" of the row, or minus infinity past the end of the row. -/
def pad {V : ℕ} (n w : ℕ) (f : Fin V → EReal) (j : Fin n) (c : Fin w) : EReal :=
  if h : j.val * w + c.val < V then f ⟨j.val * w + c.val, h⟩ else ⊥

/-- The row as a function of every natural number: minus infinity past its end. -/
def ext {V : ℕ} (f : Fin V → EReal) (k : ℕ) : EReal :=
  if h : k < V then f ⟨k, h⟩ else ⊥

/-- The padded layout reads the extended row at "j * w + c". -/
theorem pad_eq_ext {V : ℕ} (n w : ℕ) (f : Fin V → EReal) (j : Fin n) (c : Fin w) :
    pad n w f j c = ext f (j.val * w + c.val) := rfl

/-- Inside the row the extended row is the row. -/
theorem ext_val {V : ℕ} (f : Fin V → EReal) (j : Fin V) : ext f j.val = f j := by
  rw [ext, dif_pos j.isLt]

/-- Past the end the extended row is minus infinity. -/
theorem ext_of_le {V : ℕ} (f : Fin V → EReal) {k : ℕ} (h : V ≤ k) : ext f k = ⊥ := by
  rw [ext, dif_neg (by omega)]

/-- When every entry of the row is a real, every entry of the padded layout is a real or minus infinity. -/
theorem pad_bot_or_coe {V : ℕ} (n w : ℕ) (f : Fin V → EReal) (hf : ∀ j, ∃ r : ℝ, f j = (r : EReal))
    (j : Fin n) (c : Fin w) : pad n w f j c = ⊥ ∨ ∃ r : ℝ, pad n w f j c = (r : EReal) := by
  unfold pad
  split_ifs with h
  · exact Or.inr (hf _)
  · exact Or.inl rfl

/-- (C) Any quantity "g" that vanishes at minus infinity has the same sum over the padded layout as over the
    row. -/
theorem sum_pad {α : Type*} [AddCommMonoid α] {V : ℕ} (n w : ℕ) (f : Fin V → EReal) (g : EReal → α)
    (hg : g ⊥ = 0) (hV : V ≤ n * w) :
    ∑ i : Fin n, ∑ c : Fin w, g (pad n w f i c) = ∑ j : Fin V, g (f j) := by
  have h1 : ∑ i : Fin n, ∑ c : Fin w, g (pad n w f i c) = ∑ k ∈ Finset.range (n * w), g (ext f k) :=
    calc ∑ i : Fin n, ∑ c : Fin w, g (pad n w f i c)
        = ∑ p : Fin n × Fin w, g (pad n w f p.1 p.2) :=
          (Fintype.sum_prod_type' (fun i c => g (pad n w f i c))).symm
      _ = ∑ k : Fin (n * w), g (ext f k.val) := by
          refine Fintype.sum_equiv finProdFinEquiv _ _ fun p => ?_
          rw [pad_eq_ext, finProdFinEquiv_apply_val, Nat.mul_comm, Nat.add_comm]
      _ = ∑ k ∈ Finset.range (n * w), g (ext f k) :=
          Fin.sum_univ_eq_sum_range (fun k => g (ext f k)) (n * w)
  have h2 : ∑ j : Fin V, g (f j) = ∑ k ∈ Finset.range V, g (ext f k) := by
    rw [← Fin.sum_univ_eq_sum_range (fun k => g (ext f k)) V]
    exact Finset.sum_congr rfl fun j _ => by rw [ext_val]
  rw [h1, h2]
  symm
  refine Finset.sum_subset (Finset.range_subset_range.2 hV) fun k _ hk => ?_
  rw [ext_of_le f (by simpa using hk), hg]

/-- (C) The maximum over the padded layout is the maximum over the row. -/
theorem sup_pad {V : ℕ} (n w : ℕ) (f : Fin V → EReal) (hV : V ≤ n * w) :
    Finset.univ.sup (fun i : Fin n => Finset.univ.sup (pad n w f i)) = Finset.univ.sup f := by
  apply le_antisymm
  · refine Finset.sup_le fun i _ => Finset.sup_le fun c _ => ?_
    unfold pad
    split_ifs with h
    · exact Finset.le_sup (Finset.mem_univ _)
    · exact bot_le
  · refine Finset.sup_le fun j _ => ?_
    have hjV := j.isLt
    have hw : 0 < w := by
      rcases Nat.eq_zero_or_pos w with h | h
      · subst h; omega
      · exact h
    have hq : j.val / w < n := Nat.div_lt_of_lt_mul (by rw [Nat.mul_comm]; omega)
    have hr : j.val % w < w := Nat.mod_lt _ hw
    have hsplit : j.val / w * w + j.val % w = j.val := Nat.div_add_mod' _ _
    have hval : f j = pad n w f ⟨j.val / w, hq⟩ ⟨j.val % w, hr⟩ := by
      rw [pad_eq_ext]
      show f j = ext f (j.val / w * w + j.val % w)
      rw [hsplit, ext_val]
    rw [hval]
    exact le_trans (Finset.le_sup (f := pad n w f ⟨j.val / w, hq⟩) (Finset.mem_univ _))
      (Finset.le_sup (f := fun i : Fin n => Finset.univ.sup (pad n w f i)) (Finset.mem_univ _))

/-! ### (D) The theorem for a padded row -/

/-- (D) In real terms: after all "n" tiles of the padded layout of a nonempty row of reals, the maximum is a
    real "mr", the maximum of the row, and the sum is a positive real, the sum over the row of
    "exp (f j - mr)". -/
theorem run_pad_real {n w V : ℕ} (f : Fin V → EReal) (hf : ∀ j, ∃ r : ℝ, f j = (r : EReal))
    (hV : V ≤ n * w) (hV0 : 0 < V) :
    ∃ mr lr : ℝ,
      run (pad n w f) n = ((mr : EReal), (lr : EReal)) ∧
      Finset.univ.fold max ⊥ f = (mr : EReal) ∧
      lr = ∑ j : Fin V, wt (f j) mr ∧ 0 < lr := by
  have hn : 0 < n := by
    rcases Nat.eq_zero_or_pos n with h | h
    · subst h; omega
    · exact h
  have hw : 0 < w := by
    rcases Nat.eq_zero_or_pos w with h | h
    · subst h; omega
    · exact h
  have hz := pad_bot_or_coe n w f hf
  have h00 : pad n w f ⟨0, hn⟩ ⟨0, hw⟩ = f ⟨0, hV0⟩ := by
    rw [pad_eq_ext]
    show ext f (0 * w + 0) = _
    rw [Nat.zero_mul, Nat.add_zero]
    exact ext_val f ⟨0, hV0⟩
  have hz00 : ∃ r : ℝ, pad n w f ⟨0, hn⟩ ⟨0, hw⟩ = (r : EReal) := by
    rw [h00]; exact hf _
  obtain ⟨mr, h1, hsup, h2⟩ := run_grid (pad n w f) hz hn hw hz00
  have hM : Finset.univ.fold max ⊥ f = (mr : EReal) := by
    rw [fold_max_bot_eq_sup, hsup, sup_pad n w f hV]
  have hsum : ∑ i : Fin n, ∑ c : Fin w, wt (pad n w f i c) mr = ∑ j : Fin V, wt (f j) mr :=
    sum_pad n w f (fun x => wt x mr) (wt_bot mr) hV
  refine ⟨mr, ∑ j : Fin V, wt (f j) mr, ?_, hM, rfl, ?_⟩
  · rw [← hsum, ← h1, ← h2]
  · obtain ⟨r0, hr0⟩ := hf ⟨0, hV0⟩
    refine Finset.sum_pos' (fun j _ => wt_nonneg (Or.inr (hf j)) mr)
      ⟨⟨0, hV0⟩, Finset.mem_univ _, ?_⟩
    rw [hr0, wt_coe]
    exact Real.exp_pos _

/-- (D) THE THEOREM.  After all "n" tiles of the padded layout of a nonempty row of reals, the running
    maximum is the maximum of the row and the running sum is the sum over the row of
    "exp (f j - maximum)". -/
theorem run_pad {n w V : ℕ} (f : Fin V → EReal) (hf : ∀ j, ∃ r : ℝ, f j = (r : EReal))
    (hV : V ≤ n * w) (hV0 : 0 < V) :
    (run (pad n w f) n).1 = Finset.univ.fold max ⊥ f ∧
    (run (pad n w f) n).2 = ∑ j : Fin V, Ideal.exp (f j - Finset.univ.fold max ⊥ f) := by
  obtain ⟨mr, lr, hrun, hM, hlr, _⟩ := run_pad_real f hf hV hV0
  rw [hrun, hM]
  refine ⟨rfl, ?_⟩
  show (lr : EReal) = _
  rw [hlr, coe_sum]
  exact Finset.sum_congr rfl fun j _ => (exp_sub_coe_eq_wt (Or.inr (hf j)) mr).symm

end RunningStats

end
-- ==== Proof.KernelInvariant.lean ====
import proofs.«150779_j43817256354170_1_alg».proof.Proof.KernelPieces
import proofs.«150779_j43817256354170_1_alg».proof.Proof.KernelPayload
import proofs.«150779_j43817256354170_1_alg».proof.Proof.KernelBlocks
import proofs.«150779_j43817256354170_1_alg».proof.Proof.LibRunningStats

set_option maxRecDepth 16384

noncomputable section

open Idealize.ShloMosaic Idealize.ShloMosaic.TcCoe Idealize.ShloMosaic.ValueIdx Idealize.SL.Sem
open Idealize.ShloMosaic.Pipeline (Dat)
open scoped BigOperators

/-!
  The scratch columns hold the running statistics.

  Over one token block the 50 vocabulary blocks are visited in order.  One visit is one step of the running
  (maximum, sum of shifted exponentials) recurrence on each row's tile of 1024 masked logits; the first visit starts
  from (minus infinity, zero).  So after the visit of vocabulary block v the two scratch columns hold, at row p, the
  recurrence's state after v + 1 tiles of that row, and at the last block the same state is copied to the outputs.
-/

namespace Cert.KernelIdeal.Stats

open Cert.KernelIdeal Cert.KernelIdeal.Gen

variable (m : (ℓ : Loc nD τ sig) → Buf (Elt Ideal) ℓ)

/-- The token array as the region finds it, as extended reals. -/
def tok (c : Dev nD) : S2048x2048.Idx → EReal := V m c main_v0

/-- The padded weight array as the region finds it, as extended reals. -/
def wpad (c : Dev nD) : S51200x2048.Idx → EReal := V m c main_v2

/-- Row r's masked logits as the kernel sees them, vocabulary block v, column q: the inner product of the token
    array's row r with the padded weight array's row "v * 1024 + q" where that is a real vocabulary entry, minus
    infinity on the padding. -/
def tile (c : Dev nD) (r : Fin 2048) (v : Fin 50) (q : Fin 1024) : EReal :=
  if v.val * 1024 + q.val < 50257 then
    ∑ d : Fin 2048, tok m c (ix2 r d)
      * wpad m c (ix2 (⟨v.val * 1024 + q.val, by have := v.isLt; have := q.isLt; omega⟩ : Fin 51200) d)
  else ⊥

/-- The vocabulary block of point t. -/
def vblk (t : Fin cfg0.N) : Fin 50 := ⟨t.val % 50, Nat.mod_lt _ (by norm_num)⟩

/-- The logit block the body computes at point t is the tile of its rows. -/
theorem block_logits (c : Dev nD) (t : Fin cfg0.N) (p q : Fin 1024) :
    k0_pay4 (F := Ideal) (grid0.coords t) (iblk m c 0 t) (iblk m c 1 t) (ix2 p q) = tile m c (rowOf t p) (vblk t) q := by
  refine (masked_logits_apply (grid0.coords t) (iblk m c 0 t) (iblk m c 1 t) p q).trans ?_
  have hc := (coords_val t).2
  unfold tile vblk
  dsimp only
  rw [hc]
  refine if_congr Iff.rfl (Finset.sum_congr rfl fun d _ => ?_) rfl
  rw [token_block_apply m c t p d, vocab_block_apply m c t q d]
  rfl

/-- ONE STEP.  With the scratch columns holding (mo, lo), the body leaves at row p the running recurrence's step on
    that row's tile. -/
theorem step_at (i : grid0.Coords) (x0 x1 : Vec Ideal S1024x2048 .bf16) (mo lo : Vec Ideal S1024x1 .f32) (p : Fin 1024)
    (z : Fin 1024 → EReal) (hz : ∀ q, k0_pay4 (F := Ideal) i x0 x1 (ix2 p q) = z q) :
    k0_pay1 (F := Ideal) (k0_pay5 (F := Ideal) i x0 x1 mo) (ix2 p 0) = (RunningStats.step z (mo (ix2 p 0), lo (ix2 p 0))).1
    ∧ k0_pay6 (F := Ideal) i x0 x1 mo mo lo (ix2 p 0) = (RunningStats.step z (mo (ix2 p 0), lo (ix2 p 0))).2 := by
  have hz' : (fun q : Fin 1024 => k0_pay4 (F := Ideal) i x0 x1 (ix2 p q)) = z := funext hz
  have h5 : k0_pay5 (F := Ideal) i x0 x1 mo (ix2 p 0) = max (mo (ix2 p 0)) (Finset.univ.fold max ⊥ z) := by
    rw [new_max_apply, hz']
  constructor
  · rw [store_max_eq, h5]
    rfl
  · rw [new_sum_apply, h5]
    simp only [hz]
    rfl

/-- The recurrence's state for row r after k vocabulary blocks. -/
def stats (c : Dev nD) (r : Fin 2048) (k : ℕ) : EReal × EReal := RunningStats.run (tile m c r) k

/-- After vocabulary block v the state is one step on from the state before it. -/
theorem stats_succ (c : Dev nD) (r : Fin 2048) (v : Fin 50) :
    stats m c r (v.val + 1) = RunningStats.step (tile m c r v) (stats m c r v.val) :=
  RunningStats.run_succ (tile m c r) v

/-- At the first vocabulary block of a token block the scratch columns are reset, so they end at the state after
    one block. -/
theorem inv_first (c : Dev nD) (t : Fin cfg0.N) (h0 : t.val % 50 = 0) (p : Fin 1024) :
    (outsAt0 m c t.val t.isLt).2.2.1 (ix2 p 0) = (stats m c (rowOf t p) (t.val % 50 + 1)).1
    ∧ (outsAt0 m c t.val t.isLt).2.2.2 (ix2 p 0) = (stats m c (rowOf t p) (t.val % 50 + 1)).2 := by
  have h1 : ¬t.val % 50 = 49 := by omega
  rw [outsAt0_A m c t h0 h1]
  dsimp only
  rw [first_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
    first_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)]
  have hs := step_at (grid0.coords t) (iblk m c 0 t) (iblk m c 1 t) (k0_pay2 (F := Ideal)) (k0_pay3 (F := Ideal)) p
    (tile m c (rowOf t p) (vblk t)) (fun q => block_logits m c t p q)
  rw [reset_max_apply, reset_sum_apply] at hs
  have e : stats m c (rowOf t p) (t.val % 50 + 1) = RunningStats.step (tile m c (rowOf t p) (vblk t)) (⊥, 0) := by
    show stats m c (rowOf t p) ((vblk t).val + 1) = _
    rw [stats_succ]
    show RunningStats.step _ (stats m c (rowOf t p) (t.val % 50)) = _
    rw [h0]
    rfl
  rw [e]
  exact hs

/-- The later vocabulary blocks: if the point before left the state after "t % 50" blocks of the same rows, this
    point leaves the state after one block more. -/
theorem inv_next (c : Dev nD) (t : Fin cfg0.N) (h0 : ¬t.val % 50 = 0) (p : Fin 1024)
    (ih : (outsAt0 m c (t.val - 1) (Nat.lt_of_le_of_lt (Nat.sub_le _ _) t.isLt)).2.2.1 (ix2 p 0) = (stats m c (rowOf t p) (t.val % 50)).1
      ∧ (outsAt0 m c (t.val - 1) (Nat.lt_of_le_of_lt (Nat.sub_le _ _) t.isLt)).2.2.2 (ix2 p 0) = (stats m c (rowOf t p) (t.val % 50)).2) :
    (outsAt0 m c t.val t.isLt).2.2.1 (ix2 p 0) = (stats m c (rowOf t p) (t.val % 50 + 1)).1
    ∧ (outsAt0 m c t.val t.isLt).2.2.2 (ix2 p 0) = (stats m c (rowOf t p) (t.val % 50 + 1)).2 := by
  have hs := step_at (grid0.coords t) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 p
    (tile m c (rowOf t p) (vblk t)) (fun q => block_logits m c t p q)
  rw [ih.1, ih.2] at hs
  have e : stats m c (rowOf t p) (t.val % 50 + 1)
      = RunningStats.step (tile m c (rowOf t p) (vblk t)) ((stats m c (rowOf t p) (t.val % 50)).1, (stats m c (rowOf t p) (t.val % 50)).2) := by
    show stats m c (rowOf t p) ((vblk t).val + 1) = _
    rw [stats_succ]
    rfl
  rw [e]
  by_cases h1 : t.val % 50 = 49
  · rw [outsAt0_C m c t h0 h1]
    dsimp only
    rw [last_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
      last_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
    exact hs
  · rw [outsAt0_B m c t h0 h1]
    dsimp only
    rw [mid_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
      mid_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
    exact hs

/-- THE INVARIANT.  After grid point n the two scratch columns hold, at row p, the running maximum and the running
    sum of that row's tile over the vocabulary blocks seen so far in this token block. -/
theorem scratch_inv (c : Dev nD) : ∀ (n : ℕ) (h : n < cfg0.N) (p : Fin 1024),
    (outsAt0 m c n h).2.2.1 (ix2 p 0) = (stats m c (rowOf ⟨n, h⟩ p) (n % 50 + 1)).1
    ∧ (outsAt0 m c n h).2.2.2 (ix2 p 0) = (stats m c (rowOf ⟨n, h⟩ p) (n % 50 + 1)).2
  | 0, h, p => inv_first m c ⟨0, h⟩ rfl p
  | n + 1, h, p => by
    by_cases h0 : (n + 1) % 50 = 0
    · exact inv_first m c ⟨n + 1, h⟩ h0 p
    · refine inv_next m c ⟨n + 1, h⟩ h0 p ?_
      have ih := scratch_inv c n (Nat.lt_of_succ_lt h) p
      have er : rowOf (⟨n, Nat.lt_of_succ_lt h⟩ : Fin cfg0.N) p = rowOf (⟨n + 1, h⟩ : Fin cfg0.N) p := by
        apply Fin.ext
        show n / 50 * 1024 + p.val = (n + 1) / 50 * 1024 + p.val
        omega
      have ek : n % 50 + 1 = (n + 1) % 50 := by omega
      rw [er, ek] at ih
      exact ih

/-- At the last vocabulary block the two outputs receive the state after all 50 blocks. -/
theorem out_last (c : Dev nD) (t : Fin cfg0.N) (h1 : t.val % 50 = 49) (p : Fin 1024) :
    (outsAt0 m c t.val t.isLt).1 (ix2 p 0) = (stats m c (rowOf t p) 50).1
    ∧ (outsAt0 m c t.val t.isLt).2.1 (ix2 p 0) = (stats m c (rowOf t p) 50).2 := by
  have h0 : ¬t.val % 50 = 0 := by omega
  have hN : t.val < 100 := lt_of_lt_of_eq t.isLt (show cfg0.N = 100 from N_0)
  have hinv := scratch_inv m c t.val t.isLt p
  rw [h1] at hinv
  have hsc := hinv
  rw [outsAt0_C m c t h0 h1] at hsc
  dsimp only at hsc
  rw [outsAt0_C m c t h0 h1]
  dsimp only
  rw [last_out_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    last_out_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
  rw [last_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    last_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2] at hsc
  exact hsc

end Cert.KernelIdeal.Stats

end
-- ==== Proof.KernelFinal.lean ====
import proofs.«150779_j43817256354170_1_alg».proof.Proof.KernelInvariant

set_option maxRecDepth 16384

noncomputable section

open Idealize.ShloMosaic Idealize.ShloMosaic.TcCoe Idealize.ShloMosaic.ValueIdx Idealize.SL.Sem
open Idealize.ShloMosaic.Pipeline (Dat)
open scoped BigOperators

/-!
  The two output arrays after the run.

  Each output is a column of 2048 rows, written back in two blocks of 1024 rows, one per token block, at that token
  block's last vocabulary block.  What is written back is the running state after all 50 vocabulary blocks, so the
  maximum output ends holding, at row r, row r's running maximum over the whole padded vocabulary, and the sum output
  the matching running sum.
-/

namespace Cert.KernelIdeal.Stats

open Cert.KernelIdeal Cert.KernelIdeal.Gen

variable (m : (ℓ : Loc nD τ sig) → Buf (Elt Ideal) ℓ)

/-- The maximum column: at row r, the running maximum of row r after all 50 vocabulary blocks. -/
def finalMax (c : Dev nD) : S2048x1.Idx → EReal := fun i => (stats m c ⟨(i 0).val, (i 0).isLt⟩ 50).1

/-- The sum column: at row r, the running sum of row r after all 50 vocabulary blocks. -/
def finalSum (c : Dev nD) : S2048x1.Idx → EReal := fun i => (stats m c ⟨(i 0).val, (i 0).isLt⟩ 50).2

/-- What point t writes back into the maximum output is rows "t / 50 * 1024 + p" of the maximum column. -/
theorem flushed2_eq (c : Dev nD) (t : Fin cfg0.N) (hf : (cfg0.win 2).flush t = true) :
    (dats m 0 c).flushed 2 t = ((cfg0.win 2).blk t).view.read (Elt Ideal) (finalMax m c) := by
  have h1 : t.val % 50 = 49 := (flush0_2 t).mp hf
  have hi := index_out t
  show (cfg0.win 2).cut (grid0.coords t) ((dats m 0 c).after 2 t) = _
  rw [after0_2]
  funext j
  have hj0 : (j 0).val < 1024 := (j 0).isLt
  have hj1 : (j 1).val < 1 := (j 1).isLt
  have ej : j = ix2 (⟨(j 0).val, hj0⟩ : Fin 1024) (0 : Fin 1) := funext fun a => Fin.ext (by
    match a with
    | ⟨0, _⟩ => rfl
    | ⟨1, _⟩ => show (j 1).val = 0; omega)
  show (outsAt0 m c t.val t.isLt).1 j = finalMax m c (((cfg0.win 2).blk t).view.emb j)
  rw [ej, (out_last m c t h1 ⟨(j 0).val, hj0⟩).1]
  unfold finalMax
  refine congrArg (fun r => (stats m c r 50).1) (Fin.ext ?_)
  show t.val / 50 * 1024 + (j 0).val = win0_2.index t 0 * 1024 + 1 * (j 0).val
  rw [hi.1]
  omega

/-- An index of the maximum output is in point t's block iff each coordinate is in the block's range on its axis. -/
theorem mem_blk2 (t : Fin cfg0.N) (i : S2048x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v3_0).slice (win0_2.rect t)).set ↔ _
  rw [View.set_slice_whole, Rect.mem_set_unit]
  exact Iff.rfl

/-- Row r of the maximum output is written back at the last vocabulary block of its token block. -/
theorem cover2 (i : S2048x1.Idx) : ∃ t : Fin cfg0.N, (cfg0.win 2).flush t = true ∧ i ∈ ((cfg0.win 2).blk t).view.set := by
  have hi0 : (i 0).val < 2048 := (i 0).isLt
  have hi1 : (i 1).val < 1 := (i 1).isLt
  have hN : cfg0.N = 100 := N_0
  refine ⟨⟨(i 0).val / 1024 * 50 + 49, by rw [hN]; omega⟩, (flush0_2 _).mpr (by show ((i 0).val / 1024 * 50 + 49) % 50 = 49; omega), ?_⟩
  rw [mem_blk2]
  obtain ⟨e0, e1, e2, e3⟩ := index_out ⟨(i 0).val / 1024 * 50 + 49, by rw [hN]; omega⟩
  intro a
  match a with
  | ⟨0, _⟩ =>
    show win0_2.index _ 0 * 1024 ≤ (i 0).val ∧ (i 0).val < win0_2.index _ 0 * 1024 + 1024
    rw [e0]
    show ((i 0).val / 1024 * 50 + 49) / 50 * 1024 ≤ (i 0).val ∧ (i 0).val < ((i 0).val / 1024 * 50 + 49) / 50 * 1024 + 1024
    omega
  | ⟨1, _⟩ =>
    show win0_2.index _ 1 * 1 ≤ (i 1).val ∧ (i 1).val < win0_2.index _ 1 * 1 + 1
    rw [e1]
    omega

/-- So the maximum output array ends holding the maximum column. -/
theorem final2 (c : Dev nD) : (dats m 0 c).arrAt 2 cfg0.N = finalMax m c :=
  (dats m 0 c).arrAt_eq_of_cover 2 (finalMax m c) (flushed2_eq m c) cover2

/-- What point t writes back into the sum output is rows "t / 50 * 1024 + p" of the sum column. -/
theorem flushed3_eq (c : Dev nD) (t : Fin cfg0.N) (hf : (cfg0.win 3).flush t = true) :
    (dats m 0 c).flushed 3 t = ((cfg0.win 3).blk t).view.read (Elt Ideal) (finalSum m c) := by
  have h1 : t.val % 50 = 49 := (flush0_3 t).mp hf
  have hi := index_out t
  show (cfg0.win 3).cut (grid0.coords t) ((dats m 0 c).after 3 t) = _
  rw [after0_3]
  funext j
  have hj0 : (j 0).val < 1024 := (j 0).isLt
  have hj1 : (j 1).val < 1 := (j 1).isLt
  have ej : j = ix2 (⟨(j 0).val, hj0⟩ : Fin 1024) (0 : Fin 1) := funext fun a => Fin.ext (by
    match a with
    | ⟨0, _⟩ => rfl
    | ⟨1, _⟩ => show (j 1).val = 0; omega)
  show (outsAt0 m c t.val t.isLt).2.1 j = finalSum m c (((cfg0.win 3).blk t).view.emb j)
  rw [ej, (out_last m c t h1 ⟨(j 0).val, hj0⟩).2]
  unfold finalSum
  refine congrArg (fun r => (stats m c r 50).2) (Fin.ext ?_)
  show t.val / 50 * 1024 + (j 0).val = win0_3.index t 0 * 1024 + 1 * (j 0).val
  rw [hi.2.2.1]
  omega

/-- An index of the sum output is in point t's block iff each coordinate is in the block's range on its axis. -/
theorem mem_blk3 (t : Fin cfg0.N) (i : S2048x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v3_1).slice (win0_3.rect t)).set ↔ _
  rw [View.set_slice_whole, Rect.mem_set_unit]
  exact Iff.rfl

/-- Row r of the sum output is written back at the last vocabulary block of its token block. -/
theorem cover3 (i : S2048x1.Idx) : ∃ t : Fin cfg0.N, (cfg0.win 3).flush t = true ∧ i ∈ ((cfg0.win 3).blk t).view.set := by
  have hi0 : (i 0).val < 2048 := (i 0).isLt
  have hi1 : (i 1).val < 1 := (i 1).isLt
  have hN : cfg0.N = 100 := N_0
  refine ⟨⟨(i 0).val / 1024 * 50 + 49, by rw [hN]; omega⟩, (flush0_3 _).mpr (by show ((i 0).val / 1024 * 50 + 49) % 50 = 49; omega), ?_⟩
  rw [mem_blk3]
  obtain ⟨e0, e1, e2, e3⟩ := index_out ⟨(i 0).val / 1024 * 50 + 49, by rw [hN]; omega⟩
  intro a
  match a with
  | ⟨0, _⟩ =>
    show win0_3.index _ 0 * 1024 ≤ (i 0).val ∧ (i 0).val < win0_3.index _ 0 * 1024 + 1024
    rw [e2]
    show ((i 0).val / 1024 * 50 + 49) / 50 * 1024 ≤ (i 0).val ∧ (i 0).val < ((i 0).val / 1024 * 50 + 49) / 50 * 1024 + 1024
    omega
  | ⟨1, _⟩ =>
    show win0_3.index _ 1 * 1 ≤ (i 1).val ∧ (i 1).val < win0_3.index _ 1 * 1 + 1
    rw [e3]
    omega

/-- So the sum output array ends holding the sum column. -/
theorem final3 (c : Dev nD) : (dats m 0 c).arrAt 3 cfg0.N = finalSum m c :=
  (dats m 0 c).arrAt_eq_of_cover 3 (finalSum m c) (flushed3_eq m c) cover3

end Cert.KernelIdeal.Stats

end
-- ==== Proof.RowSpec.lean ====
/-
  The row statistics of a logit matrix.

  For an input matrix "x" of 2048 rows and 2048 columns and a weight matrix "w" of 50257 rows and 2048 columns,
  the logit of row "r" against vocabulary entry "j" is the inner product of row "r" of "x" with row "j" of "w".
  A row's two statistics are the maximum of its 50257 logits and the sum of their exponentials, each shifted
  by that maximum.  A log-softmax loss is a function of these two statistics and of the target's own logit.
-/
import Idealize.ShloMosaic.PureOps.Ideal
import Idealize.ShloMosaic.Lib.ValueIdx

noncomputable section

namespace Cert.RowSpec

open Idealize.ShloMosaic Idealize.ShloMosaic.ValueIdx
open scoped BigOperators

/-- The logit of row "r" against vocabulary entry "j": the inner product over the 2048 features. -/
def logit (x : (⟨2, ![2048, 2048]⟩ : Shape).Idx → EReal) (w : (⟨2, ![50257, 2048]⟩ : Shape).Idx → EReal)
    (r : Fin 2048) (j : Fin 50257) : EReal :=
  ∑ d : Fin 2048, x (ix2 r d) * w (ix2 j d)

/-- The maximum of a row's logits, folded from minus infinity. -/
def rowMax (x : (⟨2, ![2048, 2048]⟩ : Shape).Idx → EReal) (w : (⟨2, ![50257, 2048]⟩ : Shape).Idx → EReal) :
    (⟨1, ![2048]⟩ : Shape).Idx → EReal :=
  fun i => Finset.univ.fold max ⊥ (fun j : Fin 50257 => logit x w (i 0) j)

/-- The sum over a row of the exponentials of its logits less the row's maximum. -/
def rowSumExp (x : (⟨2, ![2048, 2048]⟩ : Shape).Idx → EReal) (w : (⟨2, ![50257, 2048]⟩ : Shape).Idx → EReal) :
    (⟨1, ![2048]⟩ : Shape).Idx → EReal :=
  fun i => ∑ j : Fin 50257, Ideal.exp (logit x w (i 0) j - rowMax x w i)

end Cert.RowSpec

end
-- ==== Proof.RefStats.lean ====
/-
  The reference's loss as a function of two per-row statistics.

  The reference computes, for an input matrix "x" (2048 by 2048), a weight matrix "w" (50257 by 2048) and one target
  entry per row, the logits of every row against every vocabulary entry, each row's maximum "M r" and the sum
  "L r" of the exponentials of the row's logits less that maximum, and from these the loss
  -Σ_r ((Σ_d x[r,d]·w[target r, d]) - M r - log (L r)).
  Only the two statistics read the full logit matrix.  This module names the rest of the computation as one
  function "tail" of the arguments and the two statistics, shows that the reference's maximum stage is the row
  maximum and its sum-of-exponentials stage the row sum of exponentials (each an unfolding followed by a
  re-indexing: a logit is the inner product of a row of "x" with a row of "w", the transpose only renames the
  coordinates), and restates the reference's run with its result written as "tail" of those two statistics.
-/
import proofs.«150779_j43817256354170_1_alg».proof.Proof.Gen.ReferenceIdeal.Read
import proofs.«150779_j43817256354170_1_alg».proof.Proof.RowSpec
import Idealize.ShloMosaic.Lib.ValueIdx
import Idealize.ShloMosaic.PureOps.Ideal.Laws
import Idealize.ShloMosaic.Lib.StableHlo.Run
import Idealize.ShloMosaic.Lib.Pipeline.Value

noncomputable section

namespace Cert.RefStats

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The loss as a function of the arguments and of two per-row statistics "M" and "L":
    -Σ_r ((Σ_d x[r,d]·w[target r, d]) - M r - log (L r)), the target wrapped once when negative.
    These are the reference's own operations from the gather on, with "M" where the row maximum stands and "L"
    where the row sum of exponentials stands. -/
def tail (x : FVec Ideal Cert.ReferenceIdeal.S2048x2048 .f32) (w : FVec Ideal Cert.ReferenceIdeal.S50257x2048 .f32)
    (tgt : IVec Cert.ReferenceIdeal.S2048 32) (M L : FVec Ideal Cert.ReferenceIdeal.S2048 .f32) :
    FVec Ideal Cert.ReferenceIdeal.S_ .f32 :=
  Host.negf (F := Ideal) (Host.reduceAdd (F := Ideal) (subf (F := Ideal) (subf (F := Ideal) (Host.reduceAdd (F := Ideal) (mulf (F := Ideal) x (Host.gather gather_S50257x2048_S2048x1_S2048x2048_1_0_n_n_0_1_12048 w (broadcastInDim S2048x1 ![0] bcast_S2048_S2048x1_0 (select (cmpi .slt tgt (broadcastInDim S2048 ![] bcast_S_S2048 (constantI S_ 32 0#32))) (addi tgt (broadcastInDim S2048 ![] bcast_S_S2048 (constantI S_ 32 50257#32))) tgt)))) (constant (F := Ideal) S_ .f32 0x00000000#32) reducesTo_S2048x2048_S2048_d1 h_S_) M) (Host.log (F := Ideal) L)) (constant (F := Ideal) S_ .f32 0x00000000#32) reducesTo_S2048_S_d0 h_S_)

/-! ## The logit matrix -/

/-- The reference's logit matrix at row "r" and vocabulary entry "j" is the inner product of row "r" of "x" with
    row "j" of "w": the contraction runs over the 2048 features, and the transposed weights at (d, j) are the
    weights at (j, d). -/
theorem logits_apply (x : FVec Ideal S2048x2048 .f32) (w : FVec Ideal S50257x2048 .f32) (r : Fin 2048) (j : Fin 50257) :
    Read.val_main_v1 (F := Ideal) x w (ix2 r j) = Cert.RowSpec.logit x w r j := by
  rw [Read.val_main_v1_apply]
  unfold Cert.RowSpec.logit
  refine Finset.sum_congr rfl fun k _ => ?_
  rw [Read.val_main_v0_apply]
  have e1 : Read.lidx_main_v1 (ix2 r j) k = ix2 r k :=
    funext fun a => Fin.ext (by match a with | ⟨0, _⟩ => rfl | ⟨1, _⟩ => rfl)
  have e2 : Read.idx_main_v0 (Read.ridx_main_v1 (ix2 r j) k) = ix2 j k :=
    funext fun a => Fin.ext (by match a with | ⟨0, _⟩ => rfl | ⟨1, _⟩ => rfl)
  rw [e1, e2]

/-! ## The row maximum -/

/-- Row "r" of the reduced index with vocabulary coordinate "k" put back is the matrix index (r, k). -/
theorem lift_row (h : S2048x50257.Reduces [1] S2048) (r : Fin 2048) (k : Fin (S2048x50257.size 1)) :
    h.lift (ix1 r) k = ix2 r (⟨k.val, k.isLt⟩ : Fin 50257) :=
  funext fun c => Fin.ext (by match c with | ⟨0, _⟩ => rfl | ⟨1, _⟩ => rfl)

/-- The bit pattern of minus infinity denotes the bottom of the extended reals. -/
theorem neg_inf_eq_bot : (constant (F := Ideal) S_ .f32 0xFF800000#32) (Shape.Idx.first h_S_) = (⊥ : EReal) := by
  show Ideal.ofBits .f32 0xFF800000#32 = ⊥
  simp [Ideal.ofBits, Ideal.ieee]

/-- At row "r" the maximum-reduce of the logit matrix over the vocabulary axis, started from minus infinity, is
    the fold of "max" from bottom over the row's 50257 logits. -/
theorem max_stage_apply (x : FVec Ideal S2048x2048 .f32) (w : FVec Ideal S50257x2048 .f32) (r : Fin 2048) :
    Host.reduce (FloatOps.maximumf (F := Ideal) (φ := .f32)) (Read.val_main_v1 (F := Ideal) x w)
        (constant (F := Ideal) S_ .f32 0xFF800000#32) reducesTo_S2048x50257_S2048_d1 h_S_ (ix1 r)
      = Cert.RowSpec.rowMax x w (ix1 r) := by
  have h : S2048x50257.Reduces [1] S2048 := by decide
  rw [Host.reduce_eq_fold_single FloatOps.maximumf _ _ reducesTo_S2048x50257_S2048_d1 h h_S_, neg_inf_eq_bot]
  unfold Cert.RowSpec.rowMax
  have hf : (Read.val_main_v1 (F := Ideal) x w ∘ h.lift (ix1 r)) = fun j : Fin 50257 => Cert.RowSpec.logit x w r j :=
    funext fun k => by
      show Read.val_main_v1 (F := Ideal) x w (h.lift (ix1 r) k) = _
      rw [lift_row h r k]
      exact logits_apply x w r _
  exact congrArg (fun f => Finset.fold max (⊥ : EReal) f (Finset.univ : Finset (Fin 50257))) hf

/-- The reference's max-reduce stage is the row maximum. -/
theorem max_stage (x : FVec Ideal S2048x2048 .f32) (w : FVec Ideal S50257x2048 .f32) :
    (Host.reduce (FloatOps.maximumf (F := Ideal) (φ := .f32)) (Host.dotGeneral (F := Ideal) dot_S2048x2048_S2048x50257_S2048x50257_1_0_0_1_n_n none x (transpose S2048x50257 [1, 0] w transposes_S50257x2048_S2048x50257_1_0)) (constant (F := Ideal) S_ .f32 0xFF800000#32) reducesTo_S2048x50257_S2048_d1 h_S_)
      = Cert.RowSpec.rowMax x w := by
  funext i
  obtain ⟨r, rfl⟩ : ∃ r : Fin 2048, i = ix1 r := ⟨i 0, eq_ix1 i⟩
  exact max_stage_apply x w r

/-! ## The row sum of exponentials -/

/-- At row "r" the sum stage adds, from zero, the exponentials of the row's logits each less the row's maximum:
    the two broadcasts hand every entry of row "r" that row's maximum. -/
theorem sumexp_stage_apply (x : FVec Ideal S2048x2048 .f32) (w : FVec Ideal S50257x2048 .f32) (r : Fin 2048) :
    Read.val_main_v7 (F := Ideal) x w (ix1 r) = Cert.RowSpec.rowSumExp x w (ix1 r) := by
  rw [Read.val_main_v7_apply, Read.val_main_cst_0_apply]
  show Ideal.ofBits .f32 0x00000000#32 + _ = _
  rw [Ideal.ofBits_zero_f32, zero_add]
  unfold Cert.RowSpec.rowSumExp
  refine Finset.sum_congr rfl fun k _ => ?_
  rw [Read.val_main_v6_apply, Read.val_main_v5_apply, Read.val_main_v4_apply, Read.val_main_v3_apply]
  have e1 : Read.idx_main_v7 (ix1 r) k = ix2 r k :=
    funext fun a => Fin.ext (by match a with | ⟨0, _⟩ => rfl | ⟨1, _⟩ => rfl)
  have e2 : Read.idx_main_v3 (Read.idx_main_v4 (ix2 r k)) = ix1 r :=
    funext fun a => Fin.ext (by match a with | ⟨0, _⟩ => rfl)
  rw [e1, e2, logits_apply]
  have hM : Read.val_main_v2 (F := Ideal) x w (ix1 r) = Cert.RowSpec.rowMax x w (ix1 r) := max_stage_apply x w r
  rw [hM]
  rfl

/-- The reference's sum-of-exponentials stage is the row sum of exponentials. -/
theorem sumexp_stage (x : FVec Ideal S2048x2048 .f32) (w : FVec Ideal S50257x2048 .f32) :
    (Host.reduceAdd (F := Ideal) (Host.exp (F := Ideal) (subf (F := Ideal) (Host.dotGeneral (F := Ideal) dot_S2048x2048_S2048x50257_S2048x50257_1_0_0_1_n_n none x (transpose S2048x50257 [1, 0] w transposes_S50257x2048_S2048x50257_1_0)) (broadcastInDim S2048x50257 ![0, 1] bcast_S2048x1_S2048x50257_0_1 (broadcastInDim S2048x1 ![0] bcast_S2048_S2048x1_0 (Host.reduce (FloatOps.maximumf (F := Ideal) (φ := .f32)) (Host.dotGeneral (F := Ideal) dot_S2048x2048_S2048x50257_S2048x50257_1_0_0_1_n_n none x (transpose S2048x50257 [1, 0] w transposes_S50257x2048_S2048x50257_1_0)) (constant (F := Ideal) S_ .f32 0xFF800000#32) reducesTo_S2048x50257_S2048_d1 h_S_))))) (constant (F := Ideal) S_ .f32 0x00000000#32) reducesTo_S2048x50257_S2048_d1 h_S_)
      = Cert.RowSpec.rowSumExp x w := by
  show Read.val_main_v7 (F := Ideal) x w = _
  funext i
  obtain ⟨r, rfl⟩ : ∃ r : Fin 2048, i = ix1 r := ⟨i 0, eq_ix1 i⟩
  exact sumexp_stage_apply x w r

/-! ## The reference's result -/

/-- The reference's composed result is "tail" of the arguments, the row maximum and the row sum of exponentials:
    the composed term is "tail" of its own maximum and sum stages by unfolding, and those stages are the two
    statistics. -/
theorem result_eq (x : FVec Ideal S2048x2048 .f32) (w : FVec Ideal S50257x2048 .f32) (tgt : IVec S2048 32) :
    (Read.val_main_v21 (F := Ideal) x w tgt : FVec Ideal S_ .f32)
      = tail x w tgt (Cert.RowSpec.rowMax x w) (Cert.RowSpec.rowSumExp x w) :=
  congrArg₂ (tail x w tgt) (max_stage x w) (sumexp_stage x w)

/-- The reference's run with its result rewritten: on every device every weakly fair execution ends with the
    result buffer at "tail" of the argument arrays and their two row statistics, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread nD τ).loc main_v21)
          = tail (m ((c.tc : Thread nD τ).loc main_arg0)) (m ((c.tc : Thread nD τ).loc main_arg1))
              (m ((c.tc : Thread nD τ).loc main_arg2))
              (Cert.RowSpec.rowMax (m ((c.tc : Thread nD τ).loc main_arg0)) (m ((c.tc : Thread nD τ).loc main_arg1)))
              (Cert.RowSpec.rowSumExp (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run (Cert.ReferenceIdeal.defs (F := Ideal)) _ _).mono
    (fun _ h c => ⟨(h c).1.trans (result_eq (m ((c.tc : Thread nD τ).loc main_arg0)) (m ((c.tc : Thread nD τ).loc main_arg1))
      (m ((c.tc : Thread nD τ).loc main_arg2))), (h c).2⟩)
    (Cert.ReferenceIdeal.Value.run (F := Ideal) m ρ)

end Cert.RefStats

end
-- ==== Proof.KernelHost.lean ====
/-
  The host side of the kernel's program.

  Around its one region the kernel's program runs host operations.  Before the region it changes the input
  matrix "x" and the weight matrix "w" to the 16-bit format (no change of value on the extended reals) and pads
  the weights from 50257 to 51200 rows with 943 rows of zeros.  After the region it reshapes the region's two
  result columns, one entry per row of "x", to vectors, and from them and the arguments computes the loss by the
  same operations as the reference applies to its row maximum and row sum of exponentials.  This module reads
  the two arrays the region is entered with, index by index, and states the result of the operations after the
  region as the reference's own function of the arguments and of the region's two reshaped result columns.
-/
import proofs.«150779_j43817256354170_1_alg».proof.Proof.Gen.KernelIdeal.Frame
import proofs.«150779_j43817256354170_1_alg».proof.Proof.RefStats
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost
import Idealize.ShloMosaic.Lib.Tactic

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx Idealize.ShloMosaic.Tactic
open scoped BigOperators

variable {F : FTy → Type} [FloatOps F] [Named F]

/-! ## The arrays the region is entered with -/

/-- Window 0's array when the region is entered: the input matrix changed to the 16-bit format. -/
theorem V_v0_eq (m : (ℓ : Loc nD τ sig) → Buf (Elt F) ℓ) (c : Dev nD) :
    (V m c main_v0 : (⟨S2048x2048, .bf16⟩ : BufTy).Contents (Elt F))
      = truncf .bf16 (m ((c : Thread nD τ).loc main_arg0)) bitsLt_bf16_f32 := by
  dsimp only [Gen.V, Gen.V0]
  simp only [Gen.hostOps0, Gen.hostOps0_1, List.flatten_cons, List.flatten_nil, List.append_nil, List.cons_append,
    List.nil_append]
  after_results

/-- Window 1's array when the region is entered: the weight matrix changed to the 16-bit format and padded below
    with 943 rows of the 16-bit value of the integer zero. -/
theorem V_v2_eq (m : (ℓ : Loc nD τ sig) → Buf (Elt F) ℓ) (c : Dev nD) :
    (V m c main_v2 : (⟨S51200x2048, .bf16⟩ : BufTy).Contents (Elt F))
      = pad S51200x2048 ![0, 0] ![943, 0] ![0, 0] (truncf .bf16 (m ((c : Thread nD τ).loc main_arg1)) bitsLt_bf16_f32)
          (sitofp (F := F) .bf16 (constantI S_ 32 0#32)) pads_S50257x2048_S51200x2048_09430_000 h_S_ := by
  dsimp only [Gen.V, Gen.V0]
  simp only [Gen.hostOps0, Gen.hostOps0_1, List.flatten_cons, List.flatten_nil, List.append_nil, List.cons_append,
    List.nil_append]
  after_results
  rfl

/-- A column of 2048 entries reshaped to a vector: entry "r" of the vector is row "r" of the column. -/
theorem reshape_col (v : S2048x1.Idx → EReal) (r : Fin 2048) :
    shapeCast S2048 v shapeCasts_S2048x1_S2048 (ix1 r) = v (ix2 r 0) :=
  shapeCast_apply v shapeCasts_S2048x1_S2048 (ix1 r) (ix2 r 0) (by
    rw [Shape.rowMajor_val_two, Shape.rowMajor_val_one]
    show r.val * 1 + 0 = r.val
    omega)

/-- Window 0's array as the region finds it is the input matrix itself: on the extended reals the change of
    format is the identity. -/
theorem V_x (m : (ℓ : Loc nD τ sig) → Buf (Elt Ideal) ℓ) (c : Dev nD) (i : S2048x2048.Idx) :
    (V m c main_v0 : S2048x2048.Idx → EReal) i = m ((c : Thread nD τ).loc main_arg0) i := by
  rw [V_v0_eq m c]
  rfl

/-- Window 1's array as the region finds it is the weight matrix with 943 rows of zeros below it. -/
theorem V_w (m : (ℓ : Loc nD τ sig) → Buf (Elt Ideal) ℓ) (c : Dev nD) (j : Fin 51200) (d : Fin 2048) :
    (V m c main_v2 : S51200x2048.Idx → EReal) (ix2 j d)
      = if h : j.val < 50257 then (m ((c : Thread nD τ).loc main_arg1) : S50257x2048.Idx → EReal) (ix2 ⟨j.val, h⟩ d)
          else (0 : EReal) := by
  rw [V_v2_eq m c]
  by_cases h : j.val < 50257
  · rw [dif_pos h]
    refine (pad_apply_of_inside _ _ _ _ _ pads_S50257x2048_S51200x2048_09430_000 h_S_ (ix2 j d)
      (ix2 (⟨j.val, h⟩ : Fin 50257) d) (fun a => by
        match a with
        | ⟨0, _⟩ => show j.val = 0 + j.val * (0 + 1); omega
        | ⟨1, _⟩ => show d.val = 0 + d.val * (0 + 1); omega)).trans ?_
    rfl
  · rw [dif_neg h]
    refine (pad_apply_of_not_inside _ _ _ _ _ pads_S50257x2048_S51200x2048_09430_000 h_S_ (ix2 j d) (0 : Fin 2)
      (fun hin => h (by
        have h3 := hin.2.2
        have h4 : (j.val - 0) / (0 + 1) < 50257 := h3
        simpa using h4))).trans ?_
    show (((0#32 : BitVec 32).toInt : ℝ) : EReal) = 0
    simp

/-! ## The operations after the region -/

/-- The loss as the kernel's program computes it after its region, from the arguments and two per-row vectors
    "M" and "L": -Σ_r ((Σ_d x[r,d]·w[target r, d]) - M r - log (L r)), the target wrapped once when negative. -/
def kernelTail (x : FVec F S2048x2048 .f32) (w : FVec F S50257x2048 .f32) (tgt : IVec S2048 32)
    (M L : FVec F S2048 .f32) : FVec F S_ .f32 :=
  Host.negf (Host.reduceAdd (subf (subf (Host.reduceAdd (mulf x (Host.gather gather_S50257x2048_S2048x1_S2048x2048_1_0_n_n_0_1_12048 w (broadcastInDim S2048x1 ![0] bcast_S2048_S2048x1_0 (select (cmpi .slt tgt (broadcastInDim S2048 ![] bcast_S_S2048 (constantI S_ 32 0#32))) (addi tgt (broadcastInDim S2048 ![] bcast_S_S2048 (constantI S_ 32 50257#32))) tgt)))) (constant S_ .f32 0x00000000#32) reducesTo_S2048x2048_S2048_d1 h_S_) M) (Host.log L)) (constant S_ .f32 0x00000000#32) reducesTo_S2048_S_d0 h_S_)

/-- From any buffer contents "W" the twenty operations after the region leave in the result buffer the loss of
    the three arguments and of the two result columns of the region, each reshaped to a vector. -/
theorem after_tail (W : Valuation τ sig (Elt F)) :
    (StableHlo.after (hostOps1 (F := F)) W (Proc.devRef .tc main_v19) : (⟨S_, .f32⟩ : BufTy).Contents (Elt F))
      = kernelTail (W (Proc.devRef .tc main_arg0)) (W (Proc.devRef .tc main_arg1)) (W (Proc.devRef .tc main_arg2))
          (shapeCast S2048 (W (Proc.devRef .tc main_v3_0) : S2048x1.Idx → F .f32) shapeCasts_S2048x1_S2048)
          (shapeCast S2048 (W (Proc.devRef .tc main_v3_1) : S2048x1.Idx → F .f32) shapeCasts_S2048x1_S2048) := by
  after_results
  rfl

/-- The result of the program's operations after the region, for any float values: the loss of the arguments as
    launched and of the region's two result arrays, reshaped.  The operations read the arguments, which no
    window stages and no earlier operation writes, and the two output windows' arrays, which the region leaves at
    what the proof data computes. -/
theorem tail_generic (m : (ℓ : Loc nD τ sig) → Buf (Elt F) ℓ) (c : Dev nD) :
    (Pipeline.afterTail₀ cfgs (dats m) 0 (V0 m) [hostOps1] c main_v19 : (⟨S_, .f32⟩ : BufTy).Contents (Elt F))
      = kernelTail (m ((c : Thread nD τ).loc main_arg0)) (m ((c : Thread nD τ).loc main_arg1))
          (m ((c : Thread nD τ).loc main_arg2))
          (shapeCast S2048 ((dats m 0 c).arrAt 2 cfg0.N : S2048x1.Idx → F .f32) shapeCasts_S2048x1_S2048)
          (shapeCast S2048 ((dats m 0 c).arrAt 3 cfg0.N : S2048x1.Idx → F .f32) shapeCasts_S2048x1_S2048) := by
  unfold Pipeline.afterTail₀
  show StableHlo.after (hostOps1 (F := F)) _ (Proc.devRef .tc main_v19) = _
  refine (after_tail _).trans ?_
  have e0 := (Pipeline.withArrays_of_ne spec0 c (V0 m c) (fun w => (dats m 0 c).arrAt w cfg0.N) main_arg0
    (by exact (by decide : ∀ w, Pipeline.arrRef spec0 w ≠ main_arg0))).trans (V_main_arg0 m c)
  have e1 := (Pipeline.withArrays_of_ne spec0 c (V0 m c) (fun w => (dats m 0 c).arrAt w cfg0.N) main_arg1
    (by exact (by decide : ∀ w, Pipeline.arrRef spec0 w ≠ main_arg1))).trans (V_main_arg1 m c)
  have e2 := (Pipeline.withArrays_of_ne spec0 c (V0 m c) (fun w => (dats m 0 c).arrAt w cfg0.N) main_arg2
    (by exact (by decide : ∀ w, Pipeline.arrRef spec0 w ≠ main_arg2))).trans (V_main_arg2 m c)
  have e3 := Pipeline.withArrays_arr spec0 launch0.win.arr_inj c (V0 m c) (fun w => (dats m 0 c).arrAt w cfg0.N) 2
  have e4 := Pipeline.withArrays_arr spec0 launch0.win.arr_inj c (V0 m c) (fun w => (dats m 0 c).arrAt w cfg0.N) 3
  exact congr (congr (congr (congr (congrArg kernelTail e0) e1) e2)
    (congrArg (fun v : S2048x1.Idx → F .f32 => shapeCast S2048 v shapeCasts_S2048x1_S2048) e3))
    (congrArg (fun v : S2048x1.Idx → F .f32 => shapeCast S2048 v shapeCasts_S2048x1_S2048) e4)

/-- On the extended reals the kernel's operations after the region are the reference's: the two programs print
    the same operations over the same shapes and facts. -/
theorem kernelTail_eq (x : FVec Ideal S2048x2048 .f32) (w : FVec Ideal S50257x2048 .f32) (tgt : IVec S2048 32)
    (M L : FVec Ideal S2048 .f32) : kernelTail (F := Ideal) x w tgt M L = Cert.RefStats.tail x w tgt M L := rfl

/-- The result of the host operations after the region, in terms of the two result arrays of the region. -/
theorem tail_result (m : (ℓ : Loc nD τ sig) → Buf (Elt Ideal) ℓ) (c : Dev nD) :
    Pipeline.afterTail₀ cfgs (dats m) 0 (V0 m) [hostOps1] c main_v19
      = Cert.RefStats.tail (m ((c : Thread nD τ).loc main_arg0)) (m ((c : Thread nD τ).loc main_arg1))
          (m ((c : Thread nD τ).loc main_arg2))
          (shapeCast S2048 ((dats m 0 c).arrAt 2 cfg0.N) shapeCasts_S2048x1_S2048)
          (shapeCast S2048 ((dats m 0 c).arrAt 3 cfg0.N) shapeCasts_S2048x1_S2048) :=
  (tail_generic m c).trans (kernelTail_eq _ _ _ _ _)

end Cert.KernelIdeal.HostSide

end
-- ==== Proof.FiniteInputs.lean ====
/-
  Finite inputs are real numbers.

  The certificate's precondition says that every float input is finite: for each of the two float argument
  arrays, the conjunction over all entries of "the absolute value of the entry is below plus infinity" is true.
  On the extended reals the absolute value of "x" is "max x (-x)", which is plus infinity exactly when "x" is
  plus or minus infinity; so the precondition says that every entry of the two arrays is a real number.  A
  logit is a finite sum of products of such entries, hence a real number too.

  Contents: the bit pattern of plus infinity denotes the top element; an extended real whose absolute value is
  below the top element is a real; the printed predicate decoded (a conjunction of two reductions by "and",
  each read back at every index); every logit is a real; the same facts in the form the claim's precondition
  hands them over, for the argument arrays of every device.
-/
import proofs.«150779_j43817256354170_1_alg».proof.Defs
import proofs.«150779_j43817256354170_1_alg».proof.Proof.Gen.Pre_finite_inputs
import proofs.«150779_j43817256354170_1_alg».proof.Proof.RowSpec
import proofs.«150779_j43817256354170_1_alg».proof.Proof.LibOnlineSoftmax
import Idealize.ShloMosaic.Lib.ReduceAll
import Idealize.ShloMosaic.Lib.ValueIdx

noncomputable section

namespace Cert.FiniteInputs

open Idealize.ShloMosaic Idealize.SL.Sem
open scoped BigOperators

/-- The scalar shape has exactly one index. -/
instance : Subsingleton Cert.Pre_finite_inputs.S_.Idx := ⟨fun a b => funext fun d => d.elim0⟩

/-- The single-precision bit pattern of plus infinity denotes the top element of the extended reals. -/
theorem ofBits_inf : Ideal.ofBits .f32 0x7F800000#32 = (⊤ : EReal) := by
  simp [Ideal.ofBits, Ideal.ieee]

/-- An extended real whose absolute value "max x (-x)" compares below plus infinity is a real number: at
    either infinity the absolute value is plus infinity itself. -/
theorem real_of_abs_lt_inf (x : EReal)
    (h : Ideal.cmp .olt (max x (-x)) (Ideal.ofBits .f32 0x7F800000#32) = 1#1) :
    ∃ r : ℝ, x = (r : EReal) := by
  rw [ofBits_inf] at h
  have h' : BitVec.ofBool (decide (max x (-x) < (⊤ : EReal))) = 1#1 := h
  have hlt : max x (-x) < (⊤ : EReal) := by
    by_contra hn
    rw [decide_eq_false hn] at h'
    exact absurd h' (by decide)
  induction x using EReal.rec with
  | bot =>
    rw [EReal.neg_bot, max_eq_right bot_le] at hlt
    exact absurd hlt (lt_irrefl _)
  | coe r => exact ⟨r, rfl⟩
  | top =>
    rw [max_eq_left le_top] at hlt
    exact absurd hlt (lt_irrefl _)

/-- The predicate's meaning at the ideal instance, for any two float arrays and any integer array: when it
    is all ones, every entry of each float array is a real number. -/
theorem real_of_fn [Cert.Pre_finite_inputs.Facts]
    (x : FVec Ideal Cert.Pre_finite_inputs.S2048x2048 .f32)
    (w : FVec Ideal Cert.Pre_finite_inputs.S50257x2048 .f32)
    (tgt : IVec Cert.Pre_finite_inputs.S2048 32)
    (h : Cert.Pre_finite_inputs.fn (F := Ideal) x w tgt = (fun _ => 1#1)) :
    (∀ i, ∃ r : ℝ, x i = (r : EReal)) ∧ (∀ i, ∃ r : ℝ, w i = (r : EReal)) := by
  have e := congrFun h ValueIdx.ix0
  dsimp only [Cert.Pre_finite_inputs.fn] at e
  -- the conjunction of the two reductions
  obtain ⟨e1, e2⟩ := IntOp.andi_eq_one.1 e
  refine ⟨fun i => ?_, fun i => ?_⟩
  · exact real_of_abs_lt_inf (x i) (Host.reduce_andi_all _ _ _ _ _ e1 i)
  · exact real_of_abs_lt_inf (w i) (Host.reduce_andi_all _ _ _ _ _ e2 i)

/-- So every logit, a finite sum of products of real entries, is a real number. -/
theorem logit_real (x : (⟨2, ![2048, 2048]⟩ : Shape).Idx → EReal)
    (w : (⟨2, ![50257, 2048]⟩ : Shape).Idx → EReal)
    (hx : ∀ i, ∃ r : ℝ, x i = (r : EReal)) (hw : ∀ i, ∃ r : ℝ, w i = (r : EReal))
    (r : Fin 2048) (j : Fin 50257) : ∃ a : ℝ, Cert.RowSpec.logit x w r j = (a : EReal) := by
  unfold Cert.RowSpec.logit
  exact OnlineSoftmax.isReal_sum_mul_univ _ _ (fun d => hx _) (fun d => hw _)

/-- The form the claim hands over: under the precondition, on every device every entry of the two float
    argument arrays is a real number. -/
theorem real_of_pre [hK : Cert.KernelIdeal.Facts] [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i
        = (r : EReal)) ∧
    (∀ i, ∃ r : ℝ, m ((c.tc : Thread Cert.KernelIdeal.nD Cert.KernelIdeal.τ).loc Cert.KernelIdeal.main_arg1) i
        = (r : EReal)) :=
  real_of_fn _ _ _ (hpre c)

/-- Together: under the precondition, on every device every logit of the two float argument arrays is a real
    number. -/
theorem logit_real_of_pre [hK : Cert.KernelIdeal.Facts] [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 2048) (j : Fin 50257) :
    ∃ a : ℝ, Cert.RowSpec.logit
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) r j
        = (a : EReal) :=
  logit_real _ _ (real_of_pre m hpre c).1 (real_of_pre m hpre c).2 r j

end Cert.FiniteInputs

end
-- ==== Proof.KernelValue.lean ====
import proofs.«150779_j43817256354170_1_alg».proof.Defs
import proofs.«150779_j43817256354170_1_alg».proof.Proof.KernelFinal
import proofs.«150779_j43817256354170_1_alg».proof.Proof.KernelHost
import proofs.«150779_j43817256354170_1_alg».proof.Proof.FiniteInputs
import proofs.«150779_j43817256354170_1_alg».proof.Proof.RefStats
import proofs.«150779_j43817256354170_1_alg».proof.Proof.RowSpec
import proofs.«150779_j43817256354170_1_alg».proof.Proof.LibRunningStats

set_option maxRecDepth 16384

noncomputable section

open Idealize.ShloMosaic Idealize.ShloMosaic.TcCoe Idealize.ShloMosaic.ValueIdx Idealize.SL.Sem
open Idealize.ShloMosaic.Pipeline (Dat)
open scoped BigOperators

/-!
  The kernel's result as a function of its arguments.

  The kernel's two output columns are the running state after all 50 vocabulary blocks.  A row's tile is its 50257
  logits padded with minus infinity to 50 tiles of 1024, and for finite inputs every logit is a real number, so the
  one-pass recurrence ends at the row's maximum and at the sum of the exponentials of the logits less that maximum,
  taken over the real vocabulary entries only: the padding contributes the neutral element to the maximum and zero
  to the sum.  The host operations after the launch turn these two columns and the target's own logit into the loss.
-/

namespace Cert.KernelIdeal.Stats

open Cert.KernelIdeal Cert.KernelIdeal.Gen

variable (m : (ℓ : Loc nD τ sig) → Buf (Elt Ideal) ℓ) (ρ : Dev nD → PrngReg)

/-- The kernel's tile of row r is that row's 50257 logits laid out as 50 tiles of 1024 columns and padded with minus
    infinity: the token array is the input, and the padded weight array agrees with the weights on every real
    vocabulary entry (the zero rows of the padding are never read: their columns are masked). -/
theorem tile_eq_pad (c : Dev nD) (r : Fin 2048) :
    tile m c r = RunningStats.pad 50 1024 (fun j : Fin 50257 =>
      Cert.RowSpec.logit (m ((c : Thread nD τ).loc main_arg0)) (m ((c : Thread nD τ).loc main_arg1)) r j) := by
  funext v q
  unfold tile RunningStats.pad
  by_cases h : v.val * 1024 + q.val < 50257
  · rw [if_pos h, dif_pos h]
    unfold Cert.RowSpec.logit
    refine Finset.sum_congr rfl fun d _ => ?_
    unfold tok wpad
    rw [HostSide.V_x m c (ix2 r d), HostSide.V_w m c ⟨v.val * 1024 + q.val, by have := v.isLt; have := q.isLt; omega⟩ d, dif_pos h]
  · rw [if_neg h, dif_neg h]

/-- For finite inputs the running state after all 50 vocabulary blocks is the row's maximum and the row's sum of
    exponentials shifted by it, over the 50257 real vocabulary entries. -/
theorem stats_final (hpre : Cert.Pre_KernelIdeal m) (c : Dev nD) (r : Fin 2048) :
    (stats m c r 50).1 = Cert.RowSpec.rowMax (m ((c : Thread nD τ).loc main_arg0)) (m ((c : Thread nD τ).loc main_arg1)) (ix1 r)
    ∧ (stats m c r 50).2 = Cert.RowSpec.rowSumExp (m ((c : Thread nD τ).loc main_arg0)) (m ((c : Thread nD τ).loc main_arg1)) (ix1 r) := by
  unfold stats
  rw [tile_eq_pad]
  exact RunningStats.run_pad (n := 50) (w := 1024)
    (fun j : Fin 50257 => Cert.RowSpec.logit (m ((c : Thread nD τ).loc main_arg0)) (m ((c : Thread nD τ).loc main_arg1)) r j)
    (fun j => Cert.FiniteInputs.logit_real_of_pre m hpre c r j) (by norm_num) (by norm_num)

/-- The maximum output, viewed as a vector of 2048 rows, is the reference's row maximum. -/
theorem max_col (hpre : Cert.Pre_KernelIdeal m) (c : Dev nD) :
    shapeCast S2048 ((dats m 0 c).arrAt 2 cfg0.N) shapeCasts_S2048x1_S2048
      = Cert.RowSpec.rowMax (m ((c : Thread nD τ).loc main_arg0)) (m ((c : Thread nD τ).loc main_arg1)) := by
  rw [final2]
  funext i
  obtain ⟨r, rfl⟩ : ∃ r : Fin 2048, i = ix1 r := ⟨i 0, eq_ix1 i⟩
  rw [HostSide.reshape_col]
  exact (stats_final m hpre c r).1

/-- The sum output, viewed as a vector of 2048 rows, is the reference's row sum of shifted exponentials. -/
theorem sum_col (hpre : Cert.Pre_KernelIdeal m) (c : Dev nD) :
    shapeCast S2048 ((dats m 0 c).arrAt 3 cfg0.N) shapeCasts_S2048x1_S2048
      = Cert.RowSpec.rowSumExp (m ((c : Thread nD τ).loc main_arg0)) (m ((c : Thread nD τ).loc main_arg1)) := by
  rw [final3]
  funext i
  obtain ⟨r, rfl⟩ : ∃ r : Fin 2048, i = ix1 r := ⟨i 0, eq_ix1 i⟩
  rw [HostSide.reshape_col]
  exact (stats_final m hpre c r).2

/-- THE KERNEL'S RUN, READ.  For finite inputs every weakly fair execution ends with the result at the loss computed
    from the row maxima and the row sums of shifted exponentials, the arguments unchanged. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v19)
        = Cert.RefStats.tail (m ((c.tc : Thread nD τ).loc main_arg0)) (m ((c.tc : Thread nD τ).loc main_arg1)) (m ((c.tc : Thread nD τ).loc main_arg2))
            (Cert.RowSpec.rowMax (m ((c.tc : Thread nD τ).loc main_arg0)) (m ((c.tc : Thread nD τ).loc main_arg1)))
            (Cert.RowSpec.rowSumExp (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v19 (Pipeline.mem_restRefs_of main_v19 (by decide) (by decide))).trans (by
        rw [HostSide.tail_result, max_col m hpre c, sum_col m hpre c]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Stats

end
-- ==== Proof.lean ====
/-
  A fused projection, log-softmax and negative log-likelihood loss, summed over 2048 tokens, against its plain
  reference, on the extended reals.

  Both programs compute "- sum over tokens t of (logit (t, target t) - M t - log (L t))", where "logit (t, j)" is the
  inner product of token row t with vocabulary row j, "M t" is the maximum of row t's 50257 logits and "L t" the sum
  of the exponentials of those logits less "M t".  The reference forms the whole 2048 by 50257 logit matrix and takes
  the two row statistics from it.  The kernel never forms the matrix: it visits the vocabulary in 50 blocks of 1024
  rows (the weight matrix padded with zero rows to 51200), masks the columns of the padding to minus infinity, and
  keeps a running maximum and a running sum per token row, rescaling the sum by "exp (old maximum - new maximum)"
  whenever a block raises the maximum, because "exp (m - m') * exp (x - m) = exp (x - m')".

  The proof: one visit of a block is one step of that recurrence on each row's tile of masked logits; by induction
  over the grid the scratch columns hold the recurrence's state, which the last block copies to the outputs; for
  finite inputs every logit is a real number, so after all 50 blocks the state is the row's maximum and the row's
  sum of shifted exponentials over the real vocabulary entries, the padding adding minus infinity to a maximum and
  zero to a sum; and the host operations after the launch are, operation for operation, the reference's own from
  the target gather on.  The mask's fill is a named constant denoting minus infinity at the ideal instance.
-/
import proofs.«150779_j43817256354170_1_alg».proof.Defs
import proofs.«150779_j43817256354170_1_alg».proof.Proof.Gen.Kernel
import proofs.«150779_j43817256354170_1_alg».proof.Proof.Gen.Kernel.Skeleton
import proofs.«150779_j43817256354170_1_alg».proof.Proof.Gen.Kernel.Launch
import proofs.«150779_j43817256354170_1_alg».proof.Proof.Gen.Kernel.Points
import proofs.«150779_j43817256354170_1_alg».proof.Proof.Gen.Kernel.Frame
import proofs.«150779_j43817256354170_1_alg».proof.Proof.Gen.KernelIdeal
import proofs.«150779_j43817256354170_1_alg».proof.Proof.Gen.KernelIdeal.Skeleton
import proofs.«150779_j43817256354170_1_alg».proof.Proof.Gen.KernelIdeal.Launch
import proofs.«150779_j43817256354170_1_alg».proof.Proof.Gen.KernelIdeal.Points
import proofs.«150779_j43817256354170_1_alg».proof.Proof.Gen.KernelIdeal.Frame
import proofs.«150779_j43817256354170_1_alg».proof.Proof.Gen.ReferenceIdeal
import proofs.«150779_j43817256354170_1_alg».proof.Proof.Gen.ReferenceIdeal.Run
import proofs.«150779_j43817256354170_1_alg».proof.Proof.Gen.ReferenceIdeal.Read
import proofs.«150779_j43817256354170_1_alg».proof.Proof.Gen.Pre_finite_inputs
import proofs.«150779_j43817256354170_1_alg».proof.Proof.KernelValue
import proofs.«150779_j43817256354170_1_alg».proof.Proof.RefStats
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The one rewrite of the idealization: the mask's fill is named, and the name denotes minus infinity. -/
theorem preserves : Cert.preserves_Kernel_KernelIdeal :=
  IdealRules.named_const.statement Cert.KernelIdeal.κ "neg_big" .f32 0xFF333332#32 ⊥ rfl

/-- From memories that agree on the arguments both programs end at the same loss: the tail of host operations
    applied to the row maxima and the row sums of shifted exponentials of the same logits. -/
theorem algebraic : Cert.algebraic_KernelIdeal_ReferenceIdeal := by
  intro m ρ m' ρ' hpre hagree
  refine ⟨_, Cert.KernelIdeal.Stats.run m ρ hpre, ?_⟩
  refine (θ_run Cert.ReferenceIdeal.defs _ _).mono (fun _ h c => ⟨(h c).1.trans ?_, (h c).2⟩) (Cert.RefStats.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
